-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v77_0)) (v1 : (c : Dev Cert.KernelIdeal.nD) → Buf (Elt Ideal) ((c.tc : Thread Cert.KernelIdeal.nD Cert.KernelIdeal.τ).loc Cert.KernelIdeal.main_v77_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77_0) = v0 c
          ∧ r.2.mem ((c.tc : Thread Cert.KernelIdeal.nD Cert.KernelIdeal.τ).loc Cert.KernelIdeal.main_v77_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x65536x32 : Shape := ⟨3, ![1, 65536, 32]⟩
abbrev S1x65536x32x8x3 : Shape := ⟨5, ![1, 65536, 32, 8, 3]⟩
abbrev S1x65536x32x8 : Shape := ⟨4, ![1, 65536, 32, 8]⟩
abbrev S256x256x256 : Shape := ⟨3, ![256, 256, 256]⟩
abbrev S_ : Shape := ⟨0, ![]⟩

class Facts : Prop where
  bcast_S_S1x65536x32 : S_.BroadcastsInDim S1x65536x32 (![] : Fin 0 → Fin S1x65536x32.rank)
  reducesTo_S1x65536x32_S_d0_1_2 : S1x65536x32.ReducesTo [0, 1, 2] S_
  h_S_ : 0 < S_.numel
  bcast_S_S1x65536x32x8 : S_.BroadcastsInDim S1x65536x32x8 (![] : Fin 0 → Fin S1x65536x32x8.rank)
  reducesTo_S1x65536x32x8_S_d0_1_2_3 : S1x65536x32x8.ReducesTo [0, 1, 2, 3] S_
  bcast_S_S256x256x256 : S_.BroadcastsInDim S256x256x256 (![] : Fin 0 → Fin S256x256x256.rank)
  reducesTo_S256x256x256_S_d0_1_2 : S256x256x256.ReducesTo [0, 1, 2] S_

variable [Facts]

def fn_part1 {F : FTy → Type} [FloatOps F] (main_v13 : IVec S_ 1) (main_v16 : IVec S256x256x256 1) : IVec S_ 1 :=
  let main_c_5 : IVec S_ 1 := constantI S_ 1 1#1
  let main_v17 : IVec S_ 1 := (fun x v => Host.reduce IntOp.andi x v reducesTo_S256x256x256_S_d0_1_2 h_S_) main_v16 main_c_5
  let main_v18 : IVec S_ 1 := andi main_v13 main_v17
  main_v18

def fn {F : FTy → Type} [FloatOps F] (main_arg0 : FVec F S1x65536x32 .f32) (main_arg1 : IVec S1x65536x32x8x3 32) (main_arg2 : FVec F S1x65536x32x8 .f32) (main_arg3 : FVec F S256x256x256 .f32) (main_arg4 : FVec F S256x256x256 .f32) : IVec S_ 1 :=
  let main_v0 : FVec F S1x65536x32 .f32 := Host.absf main_arg0
  let main_cst : FVec F S_ .f32 := constant S_ .f32 0x7F800000#32
  let main_v1 : FVec F S1x65536x32 .f32 := broadcastInDim S1x65536x32 ![] bcast_S_S1x65536x32 main_cst
  let main_v2 : IVec S1x65536x32 1 := cmpf .olt main_v0 main_v1
  let main_c : IVec S_ 1 := constantI S_ 1 1#1
  let main_v3 : IVec S_ 1 := (fun x v => Host.reduce IntOp.andi x v reducesTo_S1x65536x32_S_d0_1_2 h_S_) main_v2 main_c
  let main_v4 : FVec F S1x65536x32x8 .f32 := Host.absf main_arg2
  let main_cst_0 : FVec F S_ .f32 := constant S_ .f32 0x7F800000#32
  let main_v5 : FVec F S1x65536x32x8 .f32 := broadcastInDim S1x65536x32x8 ![] bcast_S_S1x65536x32x8 main_cst_0
  let main_v6 : IVec S1x65536x32x8 1 := cmpf .olt main_v4 main_v5
  let main_c_1 : IVec S_ 1 := constantI S_ 1 1#1
  let main_v7 : IVec S_ 1 := (fun x v => Host.reduce IntOp.andi x v reducesTo_S1x65536x32x8_S_d0_1_2_3 h_S_) main_v6 main_c_1
  let main_v8 : IVec S_ 1 := andi main_v3 main_v7
  let main_v9 : FVec F S256x256x256 .f32 := Host.absf main_arg3
  let main_cst_2 : FVec F S_ .f32 := constant S_ .f32 0x7F800000#32
  let main_v10 : FVec F S256x256x256 .f32 := broadcastInDim S256x256x256 ![] bcast_S_S256x256x256 main_cst_2
  let main_v11 : IVec S256x256x256 1 := cmpf .olt main_v9 main_v10
  let main_c_3 : IVec S_ 1 := constantI S_ 1 1#1
  let main_v12 : IVec S_ 1 := (fun x v => Host.reduce IntOp.andi x v reducesTo_S256x256x256_S_d0_1_2 h_S_) main_v11 main_c_3
  let main_v13 : IVec S_ 1 := andi main_v8 main_v12
  let main_v14 : FVec F S256x256x256 .f32 := Host.absf main_arg4
  let main_cst_4 : FVec F S_ .f32 := constant S_ .f32 0x7F800000#32
  let main_v15 : FVec F S256x256x256 .f32 := broadcastInDim S256x256x256 ![] bcast_S_S256x256x256 main_cst_4
  let main_v16 : IVec S256x256x256 1 := cmpf .olt main_v14 main_v15
  fn_part1 (F := F) main_v13 main_v16
-- ==== Kernel.lean ====
abbrev S1x65536x32 : Shape := ⟨3, ![1, 65536, 32]⟩
abbrev S1x65536x32x8x3 : Shape := ⟨5, ![1, 65536, 32, 8, 3]⟩
abbrev S1x65536x32x8 : Shape := ⟨4, ![1, 65536, 32, 8]⟩
abbrev S256x256x256 : Shape := ⟨3, ![256, 256, 256]⟩
abbrev S16777216x3 : Shape := ⟨2, ![16777216, 3]⟩
abbrev S16777216 : Shape := ⟨1, ![16777216]⟩
abbrev S2097152x1 : Shape := ⟨2, ![2097152, 1]⟩
abbrev S2097152x8 : Shape := ⟨2, ![2097152, 8]⟩
abbrev S16777216x1 : Shape := ⟨2, ![16777216, 1]⟩
abbrev S_ : Shape := ⟨0, ![]⟩
abbrev S16777216x2 : Shape := ⟨2, ![16777216, 2]⟩
abbrev S16x256x256 : Shape := ⟨3, ![16, 256, 256]⟩

abbrev nBuf : Space → Nat
  | .hbm => 111
  | .vmem => 14
  | .smem => 0
  | _ => 0

abbrev bufTy : (tb : Table) → Fin (tcTables nBuf tb) → BufTy
  | .hbm, ⟨0, _⟩ => ⟨S1x65536x32, .f32⟩
  | .hbm, ⟨1, _⟩ => ⟨S1x65536x32x8x3, .i32⟩
  | .hbm, ⟨2, _⟩ => ⟨S1x65536x32x8, .f32⟩
  | .hbm, ⟨3, _⟩ => ⟨S256x256x256, .f32⟩
  | .hbm, ⟨4, _⟩ => ⟨S256x256x256, .f32⟩
  | .hbm, ⟨5, _⟩ => ⟨S16777216x3, .i32⟩
  | .hbm, ⟨6, _⟩ => ⟨S16777216, .f32⟩
  | .hbm, ⟨7, _⟩ => ⟨S2097152x1, .f32⟩
  | .hbm, ⟨8, _⟩ => ⟨S2097152x8, .f32⟩
  | .hbm, ⟨9, _⟩ => ⟨S16777216, .f32⟩
  | .hbm, ⟨10, _⟩ => ⟨S16777216x1, .i32⟩
  | .hbm, ⟨11, _⟩ => ⟨S16777216, .i32⟩
  | .hbm, ⟨12, _⟩ => ⟨S_, .i32⟩
  | .hbm, ⟨13, _⟩ => ⟨S16777216, .i32⟩
  | .hbm, ⟨14, _⟩ => ⟨S16777216, .i1⟩
  | .hbm, ⟨15, _⟩ => ⟨S16777216x1, .i32⟩
  | .hbm, ⟨16, _⟩ => ⟨S16777216, .i32⟩
  | .hbm, ⟨17, _⟩ => ⟨S_, .i32⟩
  | .hbm, ⟨18, _⟩ => ⟨S16777216, .i32⟩
  | .hbm, ⟨19, _⟩ => ⟨S16777216, .i1⟩
  | .hbm, ⟨20, _⟩ => ⟨S16777216, .i1⟩
  | .hbm, ⟨21, _⟩ => ⟨S16777216x1, .i32⟩
  | .hbm, ⟨22, _⟩ => ⟨S16777216, .i32⟩
  | .hbm, ⟨23, _⟩ => ⟨S_, .i32⟩
  | .hbm, ⟨24, _⟩ => ⟨S16777216, .i32⟩
  | .hbm, ⟨25, _⟩ => ⟨S16777216, .i1⟩
  | .hbm, ⟨26, _⟩ => ⟨S16777216, .i1⟩
  | .hbm, ⟨27, _⟩ => ⟨S16777216x1, .i32⟩
  | .hbm, ⟨28, _⟩ => ⟨S16777216, .i32⟩
  | .hbm, ⟨29, _⟩ => ⟨S_, .i32⟩
  | .hbm, ⟨30, _⟩ => ⟨S16777216, .i32⟩
  | .hbm, ⟨31, _⟩ => ⟨S16777216, .i1⟩
  | .hbm, ⟨32, _⟩ => ⟨S16777216, .i1⟩
  | .hbm, ⟨33, _⟩ => ⟨S16777216x1, .i32⟩
  | .hbm, ⟨34, _⟩ => ⟨S16777216, .i32⟩
  | .hbm, ⟨35, _⟩ => ⟨S_, .i32⟩
  | .hbm, ⟨36, _⟩ => ⟨S16777216, .i32⟩
  | .hbm, ⟨37, _⟩ => ⟨S16777216, .i1⟩
  | .hbm, ⟨38, _⟩ => ⟨S16777216, .i1⟩
  | .hbm, ⟨39, _⟩ => ⟨S16777216x1, .i32⟩
  | .hbm, ⟨40, _⟩ => ⟨S16777216, .i32⟩
  | .hbm, ⟨41, _⟩ => ⟨S_, .i32⟩
  | .hbm, ⟨42, _⟩ => ⟨S16777216, .i32⟩
  | .hbm, ⟨43, _⟩ => ⟨S16777216, .i1⟩
  | .hbm, ⟨44, _⟩ => ⟨S16777216, .i1⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S16777216x3, .i32⟩
  | .hbm, ⟨49, _⟩ => ⟨S16777216x3, .i32⟩
  | .hbm, ⟨50, _⟩ => ⟨S_, .i32⟩
  | .hbm, ⟨51, _⟩ => ⟨S16777216x3, .i32⟩
  | .hbm, ⟨52, _⟩ => ⟨S16777216x3, .i32⟩
  | .hbm, ⟨53, _⟩ => ⟨S16777216x1, .i32⟩
  | .hbm, ⟨54, _⟩ => ⟨S16777216, .i32⟩
  | .hbm, ⟨55, _⟩ => ⟨S_, .i32⟩
  | .hbm, ⟨56, _⟩ => ⟨S16777216, .i32⟩
  | .hbm, ⟨57, _⟩ => ⟨S16777216, .i32⟩
  | .hbm, ⟨58, _⟩ => ⟨S16777216x1, .i32⟩
  | .hbm, ⟨59, _⟩ => ⟨S16777216, .i32⟩
  | .hbm, ⟨60, _⟩ => ⟨S_, .i32⟩
  | .hbm, ⟨61, _⟩ => ⟨S16777216, .i32⟩
  | .hbm, ⟨62, _⟩ => ⟨S16777216, .i32⟩
  | .hbm, ⟨63, _⟩ => ⟨S16777216, .i32⟩
  | .hbm, ⟨64, _⟩ => ⟨S16777216x1, .i32⟩
  | .hbm, ⟨65, _⟩ => ⟨S16777216, .i32⟩
  | .hbm, ⟨66, _⟩ => ⟨S16777216, .i32⟩
  | .hbm, ⟨67, _⟩ => ⟨S_, .f32⟩
  | .hbm, ⟨68, _⟩ => ⟨S_, .f32⟩
  | .hbm, ⟨69, _⟩ => ⟨S16777216, .f32⟩
  | .hbm, ⟨70, _⟩ => ⟨S16777216, .f32⟩
  | .hbm, ⟨71, _⟩ => ⟨S16777216, .f32⟩
  | .hbm, ⟨72, _⟩ => ⟨S_, .f32⟩
  | .hbm, ⟨73, _⟩ => ⟨S_, .f32⟩
  | .hbm, ⟨74, _⟩ => ⟨S16777216, .f32⟩
  | .hbm, ⟨75, _⟩ => ⟨S16777216, .f32⟩
  | .hbm, ⟨76, _⟩ => ⟨S16777216, .i32⟩
  | .hbm, ⟨77, _⟩ => ⟨S16777216x1, .f32⟩
  | .hbm, ⟨78, _⟩ => ⟨S16777216x1, .f32⟩
  | .hbm, ⟨79, _⟩ => ⟨S16777216x2, .f32⟩
  | .hbm, ⟨80, _⟩ => ⟨S_, .f32⟩
  | .hbm, ⟨81, _⟩ => ⟨S16777216x2, .f32⟩
  | .hbm, ⟨82, _⟩ => ⟨S_, .i32⟩
  | .hbm, ⟨83, _⟩ => ⟨S16777216, .i32⟩
  | .hbm, ⟨84, _⟩ => ⟨S16777216, .i1⟩
  | .hbm, ⟨85, _⟩ => ⟨S_, .i32⟩
  | .hbm, ⟨86, _⟩ => ⟨S16777216, .i32⟩
  | .hbm, ⟨87, _⟩ => ⟨S16777216, .i32⟩
  | .hbm, ⟨88, _⟩ => ⟨S16777216, .i32⟩
  | .hbm, ⟨89, _⟩ => ⟨S16777216x1, .i32⟩
  | .hbm, ⟨90, _⟩ => ⟨S16777216x2, .f32⟩
  | .hbm, ⟨91, _⟩ => ⟨S16777216x1, .f32⟩
  | .hbm, ⟨92, _⟩ => ⟨S16777216, .f32⟩
  | .hbm, ⟨93, _⟩ => ⟨S256x256x256, .f32⟩
  | .hbm, ⟨94, _⟩ => ⟨S16777216x1, .f32⟩
  | .hbm, ⟨95, _⟩ => ⟨S16777216, .f32⟩
  | .hbm, ⟨96, _⟩ => ⟨S256x256x256, .f32⟩
  | .hbm, ⟨97, _⟩ => ⟨S_, .i32⟩
  | .hbm, ⟨98, _⟩ => ⟨S16777216, .i32⟩
  | .hbm, ⟨99, _⟩ => ⟨S_, .i32⟩
  | .hbm, ⟨100, _⟩ => ⟨S16777216, .i32⟩
  | .hbm, ⟨101, _⟩ => ⟨S16777216, .i1⟩
  | .hbm, ⟨102, _⟩ => ⟨S_, .i32⟩
  | .hbm, ⟨103, _⟩ => ⟨S16777216, .i32⟩
  | .hbm, ⟨104, _⟩ => ⟨S16777216, .i32⟩
  | .hbm, ⟨105, _⟩ => ⟨S16777216, .i32⟩
  | .hbm, ⟨106, _⟩ => ⟨S16777216x1, .i32⟩
  | .hbm, ⟨107, _⟩ => ⟨S16777216, .i32⟩
  | .hbm, ⟨108, _⟩ => ⟨S256x256x256, .i32⟩
  | .hbm, ⟨109, _⟩ => ⟨S256x256x256, .f32⟩
  | .hbm, ⟨110, _⟩ => ⟨S256x256x256, .f32⟩
  | .local _ .vmem, ⟨0, _⟩ => ⟨S16x256x256, .f32⟩
  | .local _ .vmem, ⟨1, _⟩ => ⟨S16x256x256, .f32⟩
  | .local _ .vmem, ⟨2, _⟩ => ⟨S16x256x256, .f32⟩
  | .local _ .vmem, ⟨3, _⟩ => ⟨S16x256x256, .f32⟩
  | .local _ .vmem, ⟨4, _⟩ => ⟨S16x256x256, .f32⟩
  | .local _ .vmem, ⟨5, _⟩ => ⟨S16x256x256, .f32⟩
  | .local _ .vmem, ⟨6, _⟩ => ⟨S16x256x256, .f32⟩
  | .local _ .vmem, ⟨7, _⟩ => ⟨S16x256x256, .f32⟩
  | .local _ .vmem, ⟨8, _⟩ => ⟨S16x256x256, .i32⟩
  | .local _ .vmem, ⟨9, _⟩ => ⟨S16x256x256, .i32⟩
  | .local _ .vmem, ⟨10, _⟩ => ⟨S16x256x256, .f32⟩
  | .local _ .vmem, ⟨11, _⟩ => ⟨S16x256x256, .f32⟩
  | .local _ .vmem, ⟨12, _⟩ => ⟨S16x256x256, .f32⟩
  | .local _ .vmem, ⟨13, _⟩ => ⟨S16x256x256, .f32⟩
  | _, _ => ⟨S1x65536x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_c_6 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst : Ref sig .tc := ⟨.hbm, 67, rfl⟩
abbrev main_call1_v0 : Ref sig .tc := ⟨.hbm, 68, rfl⟩
abbrev main_call1_v1 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_call2_v0 : Ref sig .tc := ⟨.hbm, 73, rfl⟩
abbrev main_call2_v1 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_c_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_c_14 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77_0 : Ref sig .tc := ⟨.hbm, 109, rfl⟩
abbrev main_v77_1 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1x65536x32x8x3_S16777216x3 : S1x65536x32x8x3.ShapeCasts S16777216x3
  shapeCasts_S1x65536x32x8_S16777216 : S1x65536x32x8.ShapeCasts S16777216
  shapeCasts_S1x65536x32_S2097152x1 : S1x65536x32.ShapeCasts S2097152x1
  bcast_S2097152x1_S2097152x8_0_1 : S2097152x1.BroadcastsInDim S2097152x8 (![0, 1] : Fin 2 → Fin S2097152x8.rank)
  shapeCasts_S2097152x8_S16777216 : S2097152x8.ShapeCasts S16777216
  slices_S16777216x3_S16777216x1_0_0 : S16777216x3.Slices ![0, 0] S16777216x1
  shapeCasts_S16777216x1_S16777216 : S16777216x1.ShapeCasts S16777216
  bcast_S_S16777216 : S_.BroadcastsInDim S16777216 (![] : Fin 0 → Fin S16777216.rank)
  slices_S16777216x3_S16777216x1_0_1 : S16777216x3.Slices ![0, 1] S16777216x1
  slices_S16777216x3_S16777216x1_0_2 : S16777216x3.Slices ![0, 2] S16777216x1
  bcast_S_S16777216x3 : S_.BroadcastsInDim S16777216x3 (![] : Fin 0 → Fin S16777216x3.rank)
  natLt_1_32 : 1 < 32
  bcast_S16777216_S16777216x1_0 : S16777216.BroadcastsInDim S16777216x1 (![0] : Fin 1 → Fin S16777216x1.rank)
  concatenates_S16777216x1_S16777216x1_S16777216x2_d1 : Shape.Concatenates [S16777216x1, S16777216x1] S16777216x2 1
  bcast_S_S16777216x2 : S_.BroadcastsInDim S16777216x2 (![] : Fin 0 → Fin S16777216x2.rank)
  slices_S16777216x2_S16777216x1_0_0 : S16777216x2.Slices ![0, 0] S16777216x1
  shapeCasts_S16777216_S256x256x256 : S16777216.ShapeCasts S256x256x256
  slices_S16777216x2_S16777216x1_0_1 : S16777216x2.Slices ![0, 1] S16777216x1
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  scatter_S16777216x2_S16777216x1_S16777216x2_1_0_0_1_wf : ScatterDims.WF S16777216x2 S16777216x1 S16777216x2 [1] [0] [0] 1
  scatter_S16777216_S16777216x1_S16777216_n_0_0_1_wf : ScatterDims.WF S16777216 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S256x256x256.size a
  hwx0_0 : ∀ i : grid0.Coords, EltTy.bits .f32 = 32 ∨ (Rect.block (s := S256x256x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S256x256x256.size a
  hwx0_1 : ∀ i : grid0.Coords, EltTy.bits .f32 = 32 ∨ (Rect.block (s := S256x256x256) S16x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256x256.size a ≤ S256x256x256.size a
  hwx0_2 : ∀ i : grid0.Coords, EltTy.bits .f32 = 32 ∨ (Rect.block (s := S256x256x256) S16x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256x256.size a ≤ S256x256x256.size a
  hwx0_3 : ∀ i : grid0.Coords, EltTy.bits .f32 = 32 ∨ (Rect.block (s := S256x256x256) S16x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256x256.size a ≤ S256x256x256.size a
  hwx0_4 : ∀ i : grid0.Coords, EltTy.bits .i32 = 32 ∨ (Rect.block (s := S256x256x256) S16x256x256.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x256x256.size a ≤ S256x256x256.size a
  hwx0_5 : ∀ i : grid0.Coords, EltTy.bits .f32 = 32 ∨ (Rect.block (s := S256x256x256) S16x256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x256x256.size a ≤ S256x256x256.size a
  hwx0_6 : ∀ i : grid0.Coords, EltTy.bits .f32 = 32 ∨ (Rect.block (s := S256x256x256) S16x256x256.size (cc0_transform_6 i) (hinb0_6 i)).WholeWords (EltTy.packing .f32)

variable [Facts₀]

def scatter_S16777216x2_S16777216x1_S16777216x2_1_0_0_1 : ScatterDims S16777216x2 S16777216x1 S16777216x2 where
  updateWindowDims := [1]
  insertedWindowDims := [0]
  scatterDimsToOperandDims := [0]
  indexVectorDim := 1
  wf := scatter_S16777216x2_S16777216x1_S16777216x2_1_0_0_1_wf
def scatter_S16777216_S16777216x1_S16777216_n_0_0_1 : ScatterDims S16777216 S16777216x1 S16777216 where
  updateWindowDims := []
  insertedWindowDims := [0]
  scatterDimsToOperandDims := [0]
  indexVectorDim := 1
  wf := scatter_S16777216_S16777216x1_S16777216_n_0_0_1_wf

abbrev win0_0 : Pipeline.Window sig grid0 :=
  Pipeline.Window.ofSpec (Memref.whole main_arg3) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v64) S16x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v67) S16x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v76) S16x256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v77_0) S16x256x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v77_1) S16x256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x65536x32 : Shape := ⟨3, ![1, 65536, 32]⟩
abbrev S1x65536x32x8x3 : Shape := ⟨5, ![1, 65536, 32, 8, 3]⟩
abbrev S1x65536x32x8 : Shape := ⟨4, ![1, 65536, 32, 8]⟩
abbrev S256x256x256 : Shape := ⟨3, ![256, 256, 256]⟩
abbrev S3 : Shape := ⟨1, ![3]⟩
abbrev S16777216x3 : Shape := ⟨2, ![16777216, 3]⟩
abbrev S16777216 : Shape := ⟨1, ![16777216]⟩
abbrev S2097152x1 : Shape := ⟨2, ![2097152, 1]⟩
abbrev S2097152x8 : Shape := ⟨2, ![2097152, 8]⟩
abbrev S16777216x1 : Shape := ⟨2, ![16777216, 1]⟩
abbrev S_ : Shape := ⟨0, ![]⟩
abbrev S1x3 : Shape := ⟨2, ![1, 3]⟩

abbrev nBuf : Space → Nat
  | .hbm => 120
  | .vmem => 0
  | .smem => 0
  | _ => 0

abbrev bufTy : (tb : Table) → Fin (tcTables nBuf tb) → BufTy
  | .hbm, ⟨0, _⟩ => ⟨S1x65536x32, .f32⟩
  | .hbm, ⟨1, _⟩ => ⟨S1x65536x32x8x3, .i32⟩
  | .hbm, ⟨2, _⟩ => ⟨S1x65536x32x8, .f32⟩
  | .hbm, ⟨3, _⟩ => ⟨S256x256x256, .f32⟩
  | .hbm, ⟨4, _⟩ => ⟨S256x256x256, .f32⟩
  | .hbm, ⟨5, _⟩ => ⟨S3, .i32⟩
  | .hbm, ⟨6, _⟩ => ⟨S16777216x3, .i32⟩
  | .hbm, ⟨7, _⟩ => ⟨S16777216, .f32⟩
  | .hbm, ⟨8, _⟩ => ⟨S2097152x1, .f32⟩
  | .hbm, ⟨9, _⟩ => ⟨S2097152x8, .f32⟩
  | .hbm, ⟨10, _⟩ => ⟨S16777216, .f32⟩
  | .hbm, ⟨11, _⟩ => ⟨S16777216x1, .i32⟩
  | .hbm, ⟨12, _⟩ => ⟨S16777216, .i32⟩
  | .hbm, ⟨13, _⟩ => ⟨S_, .i32⟩
  | .hbm, ⟨14, _⟩ => ⟨S16777216, .i32⟩
  | .hbm, ⟨15, _⟩ => ⟨S16777216, .i1⟩
  | .hbm, ⟨16, _⟩ => ⟨S16777216x1, .i32⟩
  | .hbm, ⟨17, _⟩ => ⟨S16777216, .i32⟩
  | .hbm, ⟨18, _⟩ => ⟨S_, .i32⟩
  | .hbm, ⟨19, _⟩ => ⟨S16777216, .i32⟩
  | .hbm, ⟨20, _⟩ => ⟨S16777216, .i1⟩
  | .hbm, ⟨21, _⟩ => ⟨S16777216, .i1⟩
  | .hbm, ⟨22, _⟩ => ⟨S16777216x1, .i32⟩
  | .hbm, ⟨23, _⟩ => ⟨S16777216, .i32⟩
  | .hbm, ⟨24, _⟩ => ⟨S_, .i32⟩
  | .hbm, ⟨25, _⟩ => ⟨S16777216, .i32⟩
  | .hbm, ⟨26, _⟩ => ⟨S16777216, .i1⟩
  | .hbm, ⟨27, _⟩ => ⟨S16777216, .i1⟩
  | .hbm, ⟨28, _⟩ => ⟨S16777216x1, .i32⟩
  | .hbm, ⟨29, _⟩ => ⟨S16777216, .i32⟩
  | .hbm, ⟨30, _⟩ => ⟨S_, .i32⟩
  | .hbm, ⟨31, _⟩ => ⟨S16777216, .i32⟩
  | .hbm, ⟨32, _⟩ => ⟨S16777216, .i1⟩
  | .hbm, ⟨33, _⟩ => ⟨S16777216, .i1⟩
  | .hbm, ⟨34, _⟩ => ⟨S16777216x1, .i32⟩
  | .hbm, ⟨35, _⟩ => ⟨S16777216, .i32⟩
  | .hbm, ⟨36, _⟩ => ⟨S_, .i32⟩
  | .hbm, ⟨37, _⟩ => ⟨S16777216, .i32⟩
  | .hbm, ⟨38, _⟩ => ⟨S16777216, .i1⟩
  | .hbm, ⟨39, _⟩ => ⟨S16777216, .i1⟩
  | .hbm, ⟨40, _⟩ => ⟨S16777216x1, .i32⟩
  | .hbm, ⟨41, _⟩ => ⟨S16777216, .i32⟩
  | .hbm, ⟨42, _⟩ => ⟨S_, .i32⟩
  | .hbm, ⟨43, _⟩ => ⟨S16777216, .i32⟩
  | .hbm, ⟨44, _⟩ => ⟨S16777216, .i1⟩
  | .hbm, ⟨45, _⟩ => ⟨S16777216, .i1⟩
  | .hbm, ⟨46, _⟩ => ⟨S_, .i32⟩
  | .hbm, ⟨47, _⟩ => ⟨S_, .i32⟩
  | .hbm, ⟨48, _⟩ => ⟨S16777216x3, .i32⟩
  | .hbm, ⟨49, _⟩ => ⟨S16777216x3, .i32⟩
  | .hbm, ⟨50, _⟩ => ⟨S1x3, .i32⟩
  | .hbm, ⟨51, _⟩ => ⟨S16777216x3, .i32⟩
  | .hbm, ⟨52, _⟩ => ⟨S16777216x3, .i32⟩
  | .hbm, ⟨53, _⟩ => ⟨S16777216x1, .i32⟩
  | .hbm, ⟨54, _⟩ => ⟨S16777216, .i32⟩
  | .hbm, ⟨55, _⟩ => ⟨S_, .i32⟩
  | .hbm, ⟨56, _⟩ => ⟨S16777216, .i32⟩
  | .hbm, ⟨57, _⟩ => ⟨S16777216, .i32⟩
  | .hbm, ⟨58, _⟩ => ⟨S16777216x1, .i32⟩
  | .hbm, ⟨59, _⟩ => ⟨S16777216, .i32⟩
  | .hbm, ⟨60, _⟩ => ⟨S_, .i32⟩
  | .hbm, ⟨61, _⟩ => ⟨S16777216, .i32⟩
  | .hbm, ⟨62, _⟩ => ⟨S16777216, .i32⟩
  | .hbm, ⟨63, _⟩ => ⟨S16777216, .i32⟩
  | .hbm, ⟨64, _⟩ => ⟨S16777216x1, .i32⟩
  | .hbm, ⟨65, _⟩ => ⟨S16777216, .i32⟩
  | .hbm, ⟨66, _⟩ => ⟨S16777216, .i32⟩
  | .hbm, ⟨67, _⟩ => ⟨S_, .f32⟩
  | .hbm, ⟨68, _⟩ => ⟨S_, .f32⟩
  | .hbm, ⟨69, _⟩ => ⟨S16777216, .f32⟩
  | .hbm, ⟨70, _⟩ => ⟨S16777216, .f32⟩
  | .hbm, ⟨71, _⟩ => ⟨S16777216, .f32⟩
  | .hbm, ⟨72, _⟩ => ⟨S_, .f32⟩
  | .hbm, ⟨73, _⟩ => ⟨S_, .f32⟩
  | .hbm, ⟨74, _⟩ => ⟨S16777216, .f32⟩
  | .hbm, ⟨75, _⟩ => ⟨S16777216, .f32⟩
  | .hbm, ⟨76, _⟩ => ⟨S_, .f32⟩
  | .hbm, ⟨77, _⟩ => ⟨S16777216, .f32⟩
  | .hbm, ⟨78, _⟩ => ⟨S_, .i32⟩
  | .hbm, ⟨79, _⟩ => ⟨S16777216, .i32⟩
  | .hbm, ⟨80, _⟩ => ⟨S16777216, .i1⟩
  | .hbm, ⟨81, _⟩ => ⟨S_, .i32⟩
  | .hbm, ⟨82, _⟩ => ⟨S16777216, .i32⟩
  | .hbm, ⟨83, _⟩ => ⟨S16777216, .i32⟩
  | .hbm, ⟨84, _⟩ => ⟨S16777216, .i32⟩
  | .hbm, ⟨85, _⟩ => ⟨S16777216x1, .i32⟩
  | .hbm, ⟨86, _⟩ => ⟨S16777216, .f32⟩
  | .hbm, ⟨87, _⟩ => ⟨S256x256x256, .f32⟩
  | .hbm, ⟨88, _⟩ => ⟨S_, .i32⟩
  | .hbm, ⟨89, _⟩ => ⟨S16777216, .i32⟩
  | .hbm, ⟨90, _⟩ => ⟨S16777216, .i1⟩
  | .hbm, ⟨91, _⟩ => ⟨S_, .i32⟩
  | .hbm, ⟨92, _⟩ => ⟨S16777216, .i32⟩
  | .hbm, ⟨93, _⟩ => ⟨S16777216, .i32⟩
  | .hbm, ⟨94, _⟩ => ⟨S16777216, .i32⟩
  | .hbm, ⟨95, _⟩ => ⟨S16777216x1, .i32⟩
  | .hbm, ⟨96, _⟩ => ⟨S16777216, .f32⟩
  | .hbm, ⟨97, _⟩ => ⟨S256x256x256, .f32⟩
  | .hbm, ⟨98, _⟩ => ⟨S_, .i32⟩
  | .hbm, ⟨99, _⟩ => ⟨S16777216, .i32⟩
  | .hbm, ⟨100, _⟩ => ⟨S16777216, .i32⟩
  | .hbm, ⟨101, _⟩ => ⟨S_, .i32⟩
  | .hbm, ⟨102, _⟩ => ⟨S16777216, .i32⟩
  | .hbm, ⟨103, _⟩ => ⟨S16777216, .i1⟩
  | .hbm, ⟨104, _⟩ => ⟨S_, .i32⟩
  | .hbm, ⟨105, _⟩ => ⟨S16777216, .i32⟩
  | .hbm, ⟨106, _⟩ => ⟨S16777216, .i32⟩
  | .hbm, ⟨107, _⟩ => ⟨S16777216, .i32⟩
  | .hbm, ⟨108, _⟩ => ⟨S16777216x1, .i32⟩
  | .hbm, ⟨109, _⟩ => ⟨S16777216, .i32⟩
  | .hbm, ⟨110, _⟩ => ⟨S256x256x256, .i32⟩
  | .hbm, ⟨111, _⟩ => ⟨S_, .i32⟩
  | .hbm, ⟨112, _⟩ => ⟨S256x256x256, .i32⟩
  | .hbm, ⟨113, _⟩ => ⟨S256x256x256, .i1⟩
  | .hbm, ⟨114, _⟩ => ⟨S256x256x256, .f32⟩
  | .hbm, ⟨115, _⟩ => ⟨S256x256x256, .f32⟩
  | .hbm, ⟨116, _⟩ => ⟨S256x256x256, .f32⟩
  | .hbm, ⟨117, _⟩ => ⟨S256x256x256, .f32⟩
  | .hbm, ⟨118, _⟩ => ⟨S256x256x256, .f32⟩
  | .hbm, ⟨119, _⟩ => ⟨S256x256x256, .f32⟩
  | _, _ => ⟨S1x65536x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst : Ref sig .tc := ⟨.hbm, 67, rfl⟩
abbrev main_call1_v0 : Ref sig .tc := ⟨.hbm, 68, rfl⟩
abbrev main_call1_v1 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_call2_v0 : Ref sig .tc := ⟨.hbm, 73, rfl⟩
abbrev main_call2_v1 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_c_11 : Ref sig .tc := ⟨.hbm, 78, rfl⟩
abbrev main_v51 : Ref sig .tc := ⟨.hbm, 79, rfl⟩
abbrev main_v52 : Ref sig .tc := ⟨.hbm, 80, rfl⟩
abbrev main_c_12 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_c_17 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]

class Facts₀ : Prop where
  shapeCasts_S1x65536x32x8x3_S16777216x3 : S1x65536x32x8x3.ShapeCasts S16777216x3
  shapeCasts_S1x65536x32x8_S16777216 : S1x65536x32x8.ShapeCasts S16777216
  shapeCasts_S1x65536x32_S2097152x1 : S1x65536x32.ShapeCasts S2097152x1
  bcast_S2097152x1_S2097152x8_0_1 : S2097152x1.BroadcastsInDim S2097152x8 (![0, 1] : Fin 2 → Fin S2097152x8.rank)
  shapeCasts_S2097152x8_S16777216 : S2097152x8.ShapeCasts S16777216
  slices_S16777216x3_S16777216x1_0_0 : S16777216x3.Slices ![0, 0] S16777216x1
  shapeCasts_S16777216x1_S16777216 : S16777216x1.ShapeCasts S16777216
  bcast_S_S16777216 : S_.BroadcastsInDim S16777216 (![] : Fin 0 → Fin S16777216.rank)
  slices_S16777216x3_S16777216x1_0_1 : S16777216x3.Slices ![0, 1] S16777216x1
  slices_S16777216x3_S16777216x1_0_2 : S16777216x3.Slices ![0, 2] S16777216x1
  bcast_S_S16777216x3 : S_.BroadcastsInDim S16777216x3 (![] : Fin 0 → Fin S16777216x3.rank)
  bcast_S3_S1x3_1 : S3.BroadcastsInDim S1x3 (![1] : Fin 1 → Fin S1x3.rank)
  bcast_S1x3_S16777216x3_0_1 : S1x3.BroadcastsInDim S16777216x3 (![0, 1] : Fin 2 → Fin S16777216x3.rank)
  bcast_S16777216_S16777216x1_0 : S16777216.BroadcastsInDim S16777216x1 (![0] : Fin 1 → Fin S16777216x1.rank)
  shapeCasts_S16777216_S256x256x256 : S16777216.ShapeCasts S256x256x256
  natLt_1_32 : 1 < 32
  bcast_S_S256x256x256 : S_.BroadcastsInDim S256x256x256 (![] : Fin 0 → Fin S256x256x256.rank)
  scatter_S16777216_S16777216x1_S16777216_n_0_0_1_wf : ScatterDims.WF S16777216 S16777216x1 S16777216 [] [0] [0] 1

variable [Facts₀]

def scatter_S16777216_S16777216x1_S16777216_n_0_0_1 : ScatterDims S16777216 S16777216x1 S16777216 where
  updateWindowDims := []
  insertedWindowDims := [0]
  scatterDimsToOperandDims := [0]
  indexVectorDim := 1
  wf := scatter_S16777216_S16777216x1_S16777216_n_0_0_1_wf

class Facts : Prop extends Facts₀ where

variable [Facts]
-- ==== Proof.VolumeSpec.lean ====
/-
  The kernel's two output volumes as whole arrays.

  The region walks the 256 × 256 × 256 volumes in sixteen slabs of sixteen planes: at grid point `t` every window
  — the two volumes read, the three accumulated caches, the two volumes written — holds planes `16 t … 16 t + 15`
  of its array. The body combines the five slabs voxel by voxel, so what point `t` writes back is slab `t` of ONE
  function of the five whole arrays (`newValues`, `newWeights`), and since the sixteen slabs tile the volume the
  output arrays end holding exactly those functions.

  At a voxel, with `cnt` the number of valid samples that hit it, `vv` / `wv` the old value and weight and
  `vc` / `wc` the accumulated weighted values and weights:
    new value  = if cnt > 0 then (wv · vv + vc) / (if cnt > 0 then wv + wc else 1) else vv,
    new weight = if cnt > 0 then wv + wc else wv.
-/
import proofs.«155038_j82463372083721_2_alg».proof.Proof.Gen.KernelIdeal.Value

noncomputable section

namespace Cert.KernelIdeal.Volume

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz : (![0, 0, 0] : Fin 3 → Nat) = fun _ => 0 := funext fun a => by fin_cases a <;> rfl

/-- The new values, voxel by voxel, from the hit count, the old weights and values and the two caches. -/
abbrev newValues (cnt : S256x256x256.Idx → Elt F .i32) (wv vv vc wc : S256x256x256.Idx → Elt F .f32) :
    S256x256x256.Idx → Elt F .f32 :=
  fun i => Scalar.select (IntOp.cmpi .sgt (cnt i) 0#32)
    (FloatOps.divf (FloatOps.addf (FloatOps.mulf (wv i) (vv i)) (vc i))
      (Scalar.select (IntOp.cmpi .sgt (cnt i) 0#32) (FloatOps.addf (wv i) (wc i)) (Scalar.ofBits .f32 0x3F800000#32)))
    (vv i)

/-- The new weights, voxel by voxel. -/
abbrev newWeights (cnt : S256x256x256.Idx → Elt F .i32) (wv wc : S256x256x256.Idx → Elt F .f32) :
    S256x256x256.Idx → Elt F .f32 :=
  fun i => Scalar.select (IntOp.cmpi .sgt (cnt i) 0#32) (FloatOps.addf (wv i) (wc i)) (wv i)

/-- Every window's block index at point `t` is `(t, 0, 0)` (decided over the sixteen points). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

/-- Slab `k` is some point's block. -/
theorem idx_onto : ∀ k : Fin 16, ∃ t : Fin cfg0.N, t.val = k.val :=
  (by decide +kernel : ∀ k : Fin 16, ∃ t : Fin grid0.N, t.val = k.val)

end Cert.KernelIdeal.Volume

end
-- ==== Proof.VolumeEmb.lean ====
/-
  Where a slab index sits in the volume.

  At grid point `t` index `y = (a, r, s)` of any window's slab — sixteen planes of 256 × 256 — names voxel
  `(16 t + a, r, s)` of that window's array (`slab t y`): all seven windows use the same index map, so the five
  input slabs and the two output slabs are read and written at the same voxels (`emb0` … `emb6`).
-/
import proofs.«155038_j82463372083721_2_alg».proof.Proof.VolumeSpec

noncomputable section

namespace Cert.KernelIdeal.Volume

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Voxel `(16 t + a, r, s)`: where slab index `(a, r, s)` of point `t` sits in the volume. -/
def slab (t : Fin cfg0.N) (y : S16x256x256.Idx) : S256x256x256.Idx := fun a => match a with
  | ⟨0, _⟩ => ⟨t.val * 16 + (y 0).val, by
      have ht : t.val < 16 := lt_of_lt_of_eq t.isLt N_0
      have hy : (y 0).val < 16 := (y 0).isLt
      show t.val * 16 + (y 0).val < 256; omega⟩
  | ⟨1, _⟩ => ⟨(y 1).val, (y 1).isLt⟩
  | ⟨2, _⟩ => ⟨(y 2).val, (y 2).isLt⟩

theorem idx_win0 (t : Fin cfg0.N) : win0_0.index t (0 : Fin 3) = t.val ∧ win0_0.index t (1 : Fin 3) = 0 ∧ win0_0.index t (2 : Fin 3) = 0 := by
  obtain ⟨h, -, -, -, -, -, -⟩ := idx_facts t
  exact h

theorem idx_win1 (t : Fin cfg0.N) : win0_1.index t (0 : Fin 3) = t.val ∧ win0_1.index t (1 : Fin 3) = 0 ∧ win0_1.index t (2 : Fin 3) = 0 := by
  obtain ⟨-, h, -, -, -, -, -⟩ := idx_facts t
  exact h

theorem idx_win2 (t : Fin cfg0.N) : win0_2.index t (0 : Fin 3) = t.val ∧ win0_2.index t (1 : Fin 3) = 0 ∧ win0_2.index t (2 : Fin 3) = 0 := by
  obtain ⟨-, -, h, -, -, -, -⟩ := idx_facts t
  exact h

theorem idx_win3 (t : Fin cfg0.N) : win0_3.index t (0 : Fin 3) = t.val ∧ win0_3.index t (1 : Fin 3) = 0 ∧ win0_3.index t (2 : Fin 3) = 0 := by
  obtain ⟨-, -, -, h, -, -, -⟩ := idx_facts t
  exact h

theorem idx_win4 (t : Fin cfg0.N) : win0_4.index t (0 : Fin 3) = t.val ∧ win0_4.index t (1 : Fin 3) = 0 ∧ win0_4.index t (2 : Fin 3) = 0 := by
  obtain ⟨-, -, -, -, h, -, -⟩ := idx_facts t
  exact h

theorem idx_win5 (t : Fin cfg0.N) : win0_5.index t (0 : Fin 3) = t.val ∧ win0_5.index t (1 : Fin 3) = 0 ∧ win0_5.index t (2 : Fin 3) = 0 := by
  obtain ⟨-, -, -, -, -, h, -⟩ := idx_facts t
  exact h

theorem idx_win6 (t : Fin cfg0.N) : win0_6.index t (0 : Fin 3) = t.val ∧ win0_6.index t (1 : Fin 3) = 0 ∧ win0_6.index t (2 : Fin 3) = 0 := by
  obtain ⟨-, -, -, -, -, -, h⟩ := idx_facts t
  exact h

theorem emb0 (t : Fin cfg0.N) (y : S16x256x256.Idx) : ((cfg0.win 0).blk t).view.emb y = slab t y := by
  funext a; apply Fin.ext
  obtain ⟨e0, e1, e2⟩ := idx_win0 t
  match a with
  | ⟨0, _⟩ => show win0_0.index t (0 : Fin 3) * 16 + 1 * (y 0).val = t.val * 16 + (y 0).val; omega
  | ⟨1, _⟩ => show win0_0.index t (1 : Fin 3) * 256 + 1 * (y 1).val = (y 1).val; omega
  | ⟨2, _⟩ => show win0_0.index t (2 : Fin 3) * 256 + 1 * (y 2).val = (y 2).val; omega

theorem emb1 (t : Fin cfg0.N) (y : S16x256x256.Idx) : ((cfg0.win 1).blk t).view.emb y = slab t y := by
  funext a; apply Fin.ext
  obtain ⟨e0, e1, e2⟩ := idx_win1 t
  match a with
  | ⟨0, _⟩ => show win0_1.index t (0 : Fin 3) * 16 + 1 * (y 0).val = t.val * 16 + (y 0).val; omega
  | ⟨1, _⟩ => show win0_1.index t (1 : Fin 3) * 256 + 1 * (y 1).val = (y 1).val; omega
  | ⟨2, _⟩ => show win0_1.index t (2 : Fin 3) * 256 + 1 * (y 2).val = (y 2).val; omega

theorem emb2 (t : Fin cfg0.N) (y : S16x256x256.Idx) : ((cfg0.win 2).blk t).view.emb y = slab t y := by
  funext a; apply Fin.ext
  obtain ⟨e0, e1, e2⟩ := idx_win2 t
  match a with
  | ⟨0, _⟩ => show win0_2.index t (0 : Fin 3) * 16 + 1 * (y 0).val = t.val * 16 + (y 0).val; omega
  | ⟨1, _⟩ => show win0_2.index t (1 : Fin 3) * 256 + 1 * (y 1).val = (y 1).val; omega
  | ⟨2, _⟩ => show win0_2.index t (2 : Fin 3) * 256 + 1 * (y 2).val = (y 2).val; omega

theorem emb3 (t : Fin cfg0.N) (y : S16x256x256.Idx) : ((cfg0.win 3).blk t).view.emb y = slab t y := by
  funext a; apply Fin.ext
  obtain ⟨e0, e1, e2⟩ := idx_win3 t
  match a with
  | ⟨0, _⟩ => show win0_3.index t (0 : Fin 3) * 16 + 1 * (y 0).val = t.val * 16 + (y 0).val; omega
  | ⟨1, _⟩ => show win0_3.index t (1 : Fin 3) * 256 + 1 * (y 1).val = (y 1).val; omega
  | ⟨2, _⟩ => show win0_3.index t (2 : Fin 3) * 256 + 1 * (y 2).val = (y 2).val; omega

theorem emb4 (t : Fin cfg0.N) (y : S16x256x256.Idx) : ((cfg0.win 4).blk t).view.emb y = slab t y := by
  funext a; apply Fin.ext
  obtain ⟨e0, e1, e2⟩ := idx_win4 t
  match a with
  | ⟨0, _⟩ => show win0_4.index t (0 : Fin 3) * 16 + 1 * (y 0).val = t.val * 16 + (y 0).val; omega
  | ⟨1, _⟩ => show win0_4.index t (1 : Fin 3) * 256 + 1 * (y 1).val = (y 1).val; omega
  | ⟨2, _⟩ => show win0_4.index t (2 : Fin 3) * 256 + 1 * (y 2).val = (y 2).val; omega

theorem emb5 (t : Fin cfg0.N) (y : S16x256x256.Idx) : ((cfg0.win 5).blk t).view.emb y = slab t y := by
  funext a; apply Fin.ext
  obtain ⟨e0, e1, e2⟩ := idx_win5 t
  match a with
  | ⟨0, _⟩ => show win0_5.index t (0 : Fin 3) * 16 + 1 * (y 0).val = t.val * 16 + (y 0).val; omega
  | ⟨1, _⟩ => show win0_5.index t (1 : Fin 3) * 256 + 1 * (y 1).val = (y 1).val; omega
  | ⟨2, _⟩ => show win0_5.index t (2 : Fin 3) * 256 + 1 * (y 2).val = (y 2).val; omega

theorem emb6 (t : Fin cfg0.N) (y : S16x256x256.Idx) : ((cfg0.win 6).blk t).view.emb y = slab t y := by
  funext a; apply Fin.ext
  obtain ⟨e0, e1, e2⟩ := idx_win6 t
  match a with
  | ⟨0, _⟩ => show win0_6.index t (0 : Fin 3) * 16 + 1 * (y 0).val = t.val * 16 + (y 0).val; omega
  | ⟨1, _⟩ => show win0_6.index t (1 : Fin 3) * 256 + 1 * (y 1).val = (y 1).val; omega
  | ⟨2, _⟩ => show win0_6.index t (2 : Fin 3) * 256 + 1 * (y 2).val = (y 2).val; omega

end Cert.KernelIdeal.Volume

end
-- ==== Proof.VolumeReadsA.lean ====
/-
  The two volumes the region reads — the old values and the old weights — at a slab index: slab index `y` of point `t`
  reads the array, as the region finds it, at voxel `slab t y`.
-/
import proofs.«155038_j82463372083721_2_alg».proof.Proof.VolumeEmb

set_option Elab.async false

noncomputable section

namespace Cert.KernelIdeal.Volume

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem vv_at (c : Dev nD) (t : Fin cfg0.N) (y : S16x256x256.Idx) :
    iblk m c 0 t y = V m c main_arg3 (slab t y) := by
  show V m c main_arg3 (((cfg0.win 0).blk t).view.emb y) = V m c main_arg3 (slab t y)
  rw [emb0 t y]

theorem wv_at (c : Dev nD) (t : Fin cfg0.N) (y : S16x256x256.Idx) :
    iblk m c 1 t y = V m c main_arg4 (slab t y) := by
  show V m c main_arg4 (((cfg0.win 1).blk t).view.emb y) = V m c main_arg4 (slab t y)
  rw [emb1 t y]

end Cert.KernelIdeal.Volume

end
-- ==== Proof.VolumeReadsB.lean ====
/-
  The two accumulated caches — weights and weighted values — at a slab index: slab index `y` of point `t` reads the
  array, as the region finds it, at voxel `slab t y`.
-/
import proofs.«155038_j82463372083721_2_alg».proof.Proof.VolumeEmb

set_option Elab.async false

noncomputable section

namespace Cert.KernelIdeal.Volume

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem wc_at (c : Dev nD) (t : Fin cfg0.N) (y : S16x256x256.Idx) :
    iblk m c 2 t y = V m c main_v64 (slab t y) := by
  show V m c main_v64 (((cfg0.win 2).blk t).view.emb y) = V m c main_v64 (slab t y)
  rw [emb2 t y]

theorem vc_at (c : Dev nD) (t : Fin cfg0.N) (y : S16x256x256.Idx) :
    iblk m c 3 t y = V m c main_v67 (slab t y) := by
  show V m c main_v67 (((cfg0.win 3).blk t).view.emb y) = V m c main_v67 (slab t y)
  rw [emb3 t y]

end Cert.KernelIdeal.Volume

end
-- ==== Proof.VolumeReadsC.lean ====
/-
  The hit counts at a slab index: slab index `y` of point `t` reads the array, as the region finds it, at voxel
  `slab t y`.
-/
import proofs.«155038_j82463372083721_2_alg».proof.Proof.VolumeEmb

set_option Elab.async false

noncomputable section

namespace Cert.KernelIdeal.Volume

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- For any contents of the region's buffers: the hit-count window's slab of point `t`, read at `y`, is the hit-count
    array at voxel `slab t y`. -/
theorem read4 (c : Dev nD) (t : Fin cfg0.N) (y : S16x256x256.Idx)
    (W : (b : Ref sig .tc) → Buf (Elt F) ((c : Thread nD τ).loc b)) :
    ((cfg0.win 4).blk t).view.read (Elt F) (W (Pipeline.arrRef spec0 4)) y = W main_v76 (slab t y) := by
  show W main_v76 (((cfg0.win 4).blk t).view.emb y) = W main_v76 (slab t y)
  rw [emb4 t y]

theorem cnt_at (c : Dev nD) (t : Fin cfg0.N) (y : S16x256x256.Idx) :
    iblk m c 4 t y = V m c main_v76 (slab t y) := by
  unfold iblk
  exact read4 c t y (V m c)

end Cert.KernelIdeal.Volume

end
-- ==== Proof.VolumeFlushed.lean ====
/-
  What one grid point writes back.

  At point `t` the body stores, at every index `j` of the slab, the combine of the five input slabs at `j`; each
  input slab at `j` is its array at voxel `slab t j`, and the output slab's index `j` is the same voxel. So the slab
  written back is slab `t` of `newValues` (resp. `newWeights`) of the five arrays as the region finds them.
-/
import proofs.«155038_j82463372083721_2_alg».proof.Proof.VolumeReadsA
import proofs.«155038_j82463372083721_2_alg».proof.Proof.VolumeReadsB
import proofs.«155038_j82463372083721_2_alg».proof.Proof.VolumeReadsC

set_option Elab.async false

noncomputable section

namespace Cert.KernelIdeal.Volume

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! The body reads every slab at the index it writes. -/

theorem ix5_0_eq (j : S16x256x256.Idx) : Value.ix5_0 j = j :=
  funext fun a => match a with | ⟨0, _⟩ => rfl | ⟨1, _⟩ => rfl | ⟨2, _⟩ => rfl
theorem ix5_1_eq (j : S16x256x256.Idx) : Value.ix5_1 j = j :=
  funext fun a => match a with | ⟨0, _⟩ => rfl | ⟨1, _⟩ => rfl | ⟨2, _⟩ => rfl
theorem ix5_2_eq (j : S16x256x256.Idx) : Value.ix5_2 j = j :=
  funext fun a => match a with | ⟨0, _⟩ => rfl | ⟨1, _⟩ => rfl | ⟨2, _⟩ => rfl
theorem ix5_3_eq (j : S16x256x256.Idx) : Value.ix5_3 j = j :=
  funext fun a => match a with | ⟨0, _⟩ => rfl | ⟨1, _⟩ => rfl | ⟨2, _⟩ => rfl
theorem ix5_4_eq (j : S16x256x256.Idx) : Value.ix5_4 j = j :=
  funext fun a => match a with | ⟨0, _⟩ => rfl | ⟨1, _⟩ => rfl | ⟨2, _⟩ => rfl
theorem ix5_5_eq (j : S16x256x256.Idx) : Value.ix5_5 j = j :=
  funext fun a => match a with | ⟨0, _⟩ => rfl | ⟨1, _⟩ => rfl | ⟨2, _⟩ => rfl
theorem ix5_6_eq (j : S16x256x256.Idx) : Value.ix5_6 j = j :=
  funext fun a => match a with | ⟨0, _⟩ => rfl | ⟨1, _⟩ => rfl | ⟨2, _⟩ => rfl
theorem ix5_7_eq (j : S16x256x256.Idx) : Value.ix5_7 j = j :=
  funext fun a => match a with | ⟨0, _⟩ => rfl | ⟨1, _⟩ => rfl | ⟨2, _⟩ => rfl
theorem ix6_0_eq (j : S16x256x256.Idx) : Value.ix6_0 j = j :=
  funext fun a => match a with | ⟨0, _⟩ => rfl | ⟨1, _⟩ => rfl | ⟨2, _⟩ => rfl
theorem ix6_1_eq (j : S16x256x256.Idx) : Value.ix6_1 j = j :=
  funext fun a => match a with | ⟨0, _⟩ => rfl | ⟨1, _⟩ => rfl | ⟨2, _⟩ => rfl
theorem ix6_2_eq (j : S16x256x256.Idx) : Value.ix6_2 j = j :=
  funext fun a => match a with | ⟨0, _⟩ => rfl | ⟨1, _⟩ => rfl | ⟨2, _⟩ => rfl
theorem ix6_3_eq (j : S16x256x256.Idx) : Value.ix6_3 j = j :=
  funext fun a => match a with | ⟨0, _⟩ => rfl | ⟨1, _⟩ => rfl | ⟨2, _⟩ => rfl

/-- The new values at slab index `j` of point `t`, for ANY five slabs that are their arrays read at `slab t`: the
    combine of the five arrays at voxel `slab t j`. -/
theorem values_at (t : Fin cfg0.N) (b4 : Vec F S16x256x256 .i32) (b1 b0 b3 b2 : Vec F S16x256x256 .f32)
    (A4 : S256x256x256.Idx → Elt F .i32) (A1 A0 A3 A2 : S256x256x256.Idx → Elt F .f32)
    (h4 : ∀ y, b4 y = A4 (slab t y)) (h1 : ∀ y, b1 y = A1 (slab t y)) (h0 : ∀ y, b0 y = A0 (slab t y))
    (h3 : ∀ y, b3 y = A3 (slab t y)) (h2 : ∀ y, b2 y = A2 (slab t y)) (j : S16x256x256.Idx) :
    Value.E5 (View.ld b4 r0_0) (View.ld b1 r0_0) (View.ld b0 r0_0) (View.ld b3 r0_0) (View.ld b2 r0_0) j
      = newValues A4 A1 A0 A3 A2 (slab t j) := by
  show Scalar.select (IntOp.cmpi .sgt (View.ld b4 r0_0 (Value.ix5_0 j)) 0#32)
      (FloatOps.divf (FloatOps.addf (FloatOps.mulf (View.ld b1 r0_0 (Value.ix5_1 j)) (View.ld b0 r0_0 (Value.ix5_2 j)))
          (View.ld b3 r0_0 (Value.ix5_3 j)))
        (Scalar.select (IntOp.cmpi .sgt (View.ld b4 r0_0 (Value.ix5_4 j)) 0#32)
          (FloatOps.addf (View.ld b1 r0_0 (Value.ix5_5 j)) (View.ld b2 r0_0 (Value.ix5_6 j)))
          (Scalar.ofBits .f32 0x3F800000#32)))
      (View.ld b0 r0_0 (Value.ix5_7 j)) = _
  rw [ix5_0_eq, ix5_1_eq, ix5_2_eq, ix5_3_eq, ix5_4_eq, ix5_5_eq, ix5_6_eq, ix5_7_eq]
  rw [show View.ld b4 r0_0 = b4 from View.ld_unit_zero (S := S16x256x256) hz _ b4,
    show View.ld b1 r0_0 = b1 from View.ld_unit_zero (S := S16x256x256) hz _ b1,
    show View.ld b0 r0_0 = b0 from View.ld_unit_zero (S := S16x256x256) hz _ b0,
    show View.ld b3 r0_0 = b3 from View.ld_unit_zero (S := S16x256x256) hz _ b3,
    show View.ld b2 r0_0 = b2 from View.ld_unit_zero (S := S16x256x256) hz _ b2]
  rw [h4 j, h1 j, h0 j, h3 j, h2 j]

/-- The new weights at slab index `j` of point `t`, likewise. -/
theorem weights_at (t : Fin cfg0.N) (b4 : Vec F S16x256x256 .i32) (b1 b2 : Vec F S16x256x256 .f32)
    (A4 : S256x256x256.Idx → Elt F .i32) (A1 A2 : S256x256x256.Idx → Elt F .f32)
    (h4 : ∀ y, b4 y = A4 (slab t y)) (h1 : ∀ y, b1 y = A1 (slab t y)) (h2 : ∀ y, b2 y = A2 (slab t y))
    (j : S16x256x256.Idx) :
    Value.E6 (View.ld b4 r0_0) (View.ld b1 r0_0) (View.ld b2 r0_0) j = newWeights A4 A1 A2 (slab t j) := by
  show Scalar.select (IntOp.cmpi .sgt (View.ld b4 r0_0 (Value.ix6_0 j)) 0#32)
      (FloatOps.addf (View.ld b1 r0_0 (Value.ix6_1 j)) (View.ld b2 r0_0 (Value.ix6_2 j)))
      (View.ld b1 r0_0 (Value.ix6_3 j)) = _
  rw [ix6_0_eq, ix6_1_eq, ix6_2_eq, ix6_3_eq]
  rw [show View.ld b4 r0_0 = b4 from View.ld_unit_zero (S := S16x256x256) hz _ b4,
    show View.ld b1 r0_0 = b1 from View.ld_unit_zero (S := S16x256x256) hz _ b1,
    show View.ld b2 r0_0 = b2 from View.ld_unit_zero (S := S16x256x256) hz _ b2]
  rw [h4 j, h1 j, h2 j]

/-- For ANY slab `X` and array `G` with `X j = G (slab t j)`: the slab, as output window 5 writes it back at point `t`, is
    slab `t` of `G`. -/
theorem writes_slab5 (t : Fin cfg0.N) (X : Vec F S16x256x256 .f32) (G : S256x256x256.Idx → Elt F .f32)
    (h : ∀ j : S16x256x256.Idx, X j = G (slab t j)) :
    (cfg0.win 5).cut (grid0.coords t) X = ((cfg0.win 5).blk t).view.read (Elt F) G := by
  funext j
  show X j = G (((cfg0.win 5).blk t).view.emb j)
  rw [emb5 t j]
  exact h j

/-- The same for output window 6. -/
theorem writes_slab6 (t : Fin cfg0.N) (X : Vec F S16x256x256 .f32) (G : S256x256x256.Idx → Elt F .f32)
    (h : ∀ j : S16x256x256.Idx, X j = G (slab t j)) :
    (cfg0.win 6).cut (grid0.coords t) X = ((cfg0.win 6).blk t).view.read (Elt F) G := by
  funext j
  show X j = G (((cfg0.win 6).blk t).view.emb j)
  rw [emb6 t j]
  exact h j

/-- WHAT POINT `t` WRITES BACK to the new values: slab `t` of `newValues` of the five arrays as the region finds them. -/
theorem flushed5_eq (c : Dev nD) (t : Fin cfg0.N) :
    (dats m 0 c).flushed 5 t = ((cfg0.win 5).blk t).view.read (Elt F)
      (newValues (V m c main_v76) (V m c main_arg4) (V m c main_arg3) (V m c main_v67) (V m c main_v64)) := by
  rw [Value.flushed5]
  exact writes_slab5 t _ _ (fun j =>
    (Value.canon5_eq (View.ld (iblk m c 4 t) r0_0) (View.ld (iblk m c 1 t) r0_0) (View.ld (iblk m c 0 t) r0_0)
      (View.ld (iblk m c 3 t) r0_0) (View.ld (iblk m c 2 t) r0_0) j).trans
    (values_at t (iblk m c 4 t) (iblk m c 1 t) (iblk m c 0 t) (iblk m c 3 t) (iblk m c 2 t)
      (V m c main_v76) (V m c main_arg4) (V m c main_arg3) (V m c main_v67) (V m c main_v64)
      (cnt_at m c t) (wv_at m c t) (vv_at m c t) (vc_at m c t) (wc_at m c t) j))

/-- WHAT POINT `t` WRITES BACK to the new weights: slab `t` of `newWeights`. -/
theorem flushed6_eq (c : Dev nD) (t : Fin cfg0.N) :
    (dats m 0 c).flushed 6 t = ((cfg0.win 6).blk t).view.read (Elt F)
      (newWeights (V m c main_v76) (V m c main_arg4) (V m c main_v64)) := by
  rw [Value.flushed6]
  exact writes_slab6 t _ _ (fun j =>
    (Value.canon6_eq (View.ld (iblk m c 4 t) r0_0) (View.ld (iblk m c 1 t) r0_0) (View.ld (iblk m c 2 t) r0_0) j).trans
    (weights_at t (iblk m c 4 t) (iblk m c 1 t) (iblk m c 2 t) (V m c main_v76) (V m c main_arg4) (V m c main_v64)
      (cnt_at m c t) (wv_at m c t) (wc_at m c t) j))

end Cert.KernelIdeal.Volume

end
-- ==== Proof.VolumeCover.lean ====
/-
  The sixteen slabs tile the volume.

  Point `t`'s slab of an output window is planes `16 t … 16 t + 15`, all rows and columns; plane `p` of the volume
  therefore lies in the slab of point `p / 16`, and every voxel is written back by some point.
-/
import proofs.«155038_j82463372083721_2_alg».proof.Proof.VolumeSpec

noncomputable section

namespace Cert.KernelIdeal.Volume

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- An array index lies in point `t`'s slab of output window 5 iff each coordinate is in the slab's range. -/
theorem mem_blk5 (t : Fin cfg0.N) (i : S256x256x256.Idx) :
    i ∈ ((cfg0.win 5).blk t).view.set ↔ ∀ a : Fin 3, win0_5.index t a * S16x256x256.size a ≤ (i a).val ∧ (i a).val < win0_5.index t a * S16x256x256.size a + S16x256x256.size a := by
  show i ∈ ((View.whole main_v77_0).slice (win0_5.rect t)).set ↔ _
  rw [View.set_slice_whole, Rect.mem_set_unit]
  exact Iff.rfl

/-- The same for output window 6. -/
theorem mem_blk6 (t : Fin cfg0.N) (i : S256x256x256.Idx) :
    i ∈ ((cfg0.win 6).blk t).view.set ↔ ∀ a : Fin 3, win0_6.index t a * S16x256x256.size a ≤ (i a).val ∧ (i a).val < win0_6.index t a * S16x256x256.size a + S16x256x256.size a := by
  show i ∈ ((View.whole main_v77_1).slice (win0_6.rect t)).set ↔ _
  rw [View.set_slice_whole, Rect.mem_set_unit]
  exact Iff.rfl

/-- The sixteen slabs of output window 5 tile its volume: plane `p` lies in slab `p / 16`. -/
theorem cover5 (i : S256x256x256.Idx) : ∃ t : Fin cfg0.N, (cfg0.win 5).flush t = true ∧ i ∈ ((cfg0.win 5).blk t).view.set := by
  have hi0 : (i 0).val < 256 := (i 0).isLt
  have hi1 : (i 1).val < 256 := (i 1).isLt
  have hi2 : (i 2).val < 256 := (i 2).isLt
  obtain ⟨t, ht⟩ := idx_onto ⟨(i 0).val / 16, by omega⟩
  have ht' : t.val = (i 0).val / 16 := ht
  obtain ⟨-, -, -, -, -, ⟨e0, e1, e2⟩, -⟩ := idx_facts t
  refine ⟨t, flush0_5 t, ?_⟩
  rw [mem_blk5]
  intro a
  match a with
  | ⟨0, _⟩ => show win0_5.index t (0 : Fin 3) * 16 ≤ (i 0).val ∧ (i 0).val < win0_5.index t (0 : Fin 3) * 16 + 16; omega
  | ⟨1, _⟩ => show win0_5.index t (1 : Fin 3) * 256 ≤ (i 1).val ∧ (i 1).val < win0_5.index t (1 : Fin 3) * 256 + 256; omega
  | ⟨2, _⟩ => show win0_5.index t (2 : Fin 3) * 256 ≤ (i 2).val ∧ (i 2).val < win0_5.index t (2 : Fin 3) * 256 + 256; omega

/-- And so do those of output window 6. -/
theorem cover6 (i : S256x256x256.Idx) : ∃ t : Fin cfg0.N, (cfg0.win 6).flush t = true ∧ i ∈ ((cfg0.win 6).blk t).view.set := by
  have hi0 : (i 0).val < 256 := (i 0).isLt
  have hi1 : (i 1).val < 256 := (i 1).isLt
  have hi2 : (i 2).val < 256 := (i 2).isLt
  obtain ⟨t, ht⟩ := idx_onto ⟨(i 0).val / 16, by omega⟩
  have ht' : t.val = (i 0).val / 16 := ht
  obtain ⟨-, -, -, -, -, -, ⟨e0, e1, e2⟩⟩ := idx_facts t
  refine ⟨t, flush0_6 t, ?_⟩
  rw [mem_blk6]
  intro a
  match a with
  | ⟨0, _⟩ => show win0_6.index t (0 : Fin 3) * 16 ≤ (i 0).val ∧ (i 0).val < win0_6.index t (0 : Fin 3) * 16 + 16; omega
  | ⟨1, _⟩ => show win0_6.index t (1 : Fin 3) * 256 ≤ (i 1).val ∧ (i 1).val < win0_6.index t (1 : Fin 3) * 256 + 256; omega
  | ⟨2, _⟩ => show win0_6.index t (2 : Fin 3) * 256 ≤ (i 2).val ∧ (i 2).val < win0_6.index t (2 : Fin 3) * 256 + 256; omega

end Cert.KernelIdeal.Volume

end
-- ==== Proof.VolumeFinal.lean ====
/-
  The kernel's run, read: the two output volumes after the run are `newValues` and `newWeights` of the five arrays
  the region reads — the two argument volumes as launched, and the caches and hit counts as the host operations before
  the region leave them. Every grid point writes back its slab of those functions and the slabs tile the volumes.
-/
import proofs.«155038_j82463372083721_2_alg».proof.Proof.VolumeFlushed
import proofs.«155038_j82463372083721_2_alg».proof.Proof.VolumeCover

set_option Elab.async false

noncomputable section

namespace Cert.KernelIdeal.Volume

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The new-values volume after the run. -/
theorem final5 (c : Dev nD) : (dats m 0 c).arrAt 5 cfg0.N
    = newValues (V m c main_v76) (V m c main_arg4) (V m c main_arg3) (V m c main_v67) (V m c main_v64) :=
  (dats m 0 c).arrAt_eq_of_cover 5 _ (fun t _ => flushed5_eq m c t) cover5

/-- The new-weights volume after the run. -/
theorem final6 (c : Dev nD) : (dats m 0 c).arrAt 6 cfg0.N
    = newWeights (V m c main_v76) (V m c main_arg4) (V m c main_v64) :=
  (dats m 0 c).arrAt_eq_of_cover 6 _ (fun t _ => flushed6_eq m c t) cover6

/-- Every weakly fair execution of the kernel's program ends with the two results at those functions and the arguments
    unchanged. -/
theorem run : θ_run defs (onTc (τ := τ) (main (F := F))) ⟨m, fun _ => 0, ρ⟩ fun r => ∀ c : Dev nD,
      r.2.mem ((c : Thread nD τ).loc main_v77_0)
          = newValues (V m c main_v76) (V m c main_arg4) (V m c main_arg3) (V m c main_v67) (V m c main_v64)
      ∧ r.2.mem ((c : Thread nD τ).loc main_v77_1) = newWeights (V m c main_v76) (V m c main_arg4) (V m c main_v64)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Value.run_blocks m ρ)

end Cert.KernelIdeal.Volume

end
-- ==== Proof.RefRun.lean ====
/-
  The reference's run.

  The reference program is a straight line of host operations and nothing else, so every weakly fair execution of it
  terminates with each buffer holding the fold of the operations' results over the launch memory (`R m d b`). No
  operation writes an argument array, so the five arguments end as launched.
-/
import proofs.«155038_j82463372083721_2_alg».proof.Proof.RefOps

set_option Elab.async false

noncomputable section

namespace Cert.ReferenceIdeal.Ref

open Cert.ReferenceIdeal Cert.ReferenceIdeal.Gen Cert.ReferenceIdeal.ValueP Idealize.ShloMosaic Idealize.ShloMosaic.TcCoe Idealize.SL.Sem
open Idealize.ShloMosaic.StableHlo

variable {F : FTy → Type} [FloatOps F]

/-- What core `d`'s buffer `b` holds once the reference's operations have run, in order, from the launch memory `m`. -/
def R (m : (ℓ : Loc nD τ sig) → Buf (Elt F) ℓ) (d : Dev nD) (b : Ref sig .tc) : Buf (Elt F) ((d.tc : Thread nD τ).loc b) :=
  after (ops (F := F)) (launchContents m d) (Proc.devRef .tc b)

/-- Every weakly fair execution of the reference terminates with every buffer at `R`. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = R m d b :=
  run_seq scopedRefs_eq scopedSems_eq defs main (fun _ => ops) main_eq (fun _ => ops_sub) m ρ

/-- No operation writes argument 0: it ends as launched. -/
theorem R_arg0 (m : (ℓ : Loc nD τ sig) → Buf (Elt F) ℓ) (d : Dev nD) :
    R m d main_arg0 = m ((d.tc : Thread nD τ).loc main_arg0) := by
  unfold R
  after_results_simp

/-- No operation writes argument 1: it ends as launched. -/
theorem R_arg1 (m : (ℓ : Loc nD τ sig) → Buf (Elt F) ℓ) (d : Dev nD) :
    R m d main_arg1 = m ((d.tc : Thread nD τ).loc main_arg1) := by
  unfold R
  after_results_simp

/-- No operation writes argument 2: it ends as launched. -/
theorem R_arg2 (m : (ℓ : Loc nD τ sig) → Buf (Elt F) ℓ) (d : Dev nD) :
    R m d main_arg2 = m ((d.tc : Thread nD τ).loc main_arg2) := by
  unfold R
  after_results_simp

/-- No operation writes argument 3: it ends as launched. -/
theorem R_arg3 (m : (ℓ : Loc nD τ sig) → Buf (Elt F) ℓ) (d : Dev nD) :
    R m d main_arg3 = m ((d.tc : Thread nD τ).loc main_arg3) := by
  unfold R
  after_results_simp

/-- No operation writes argument 4: it ends as launched. -/
theorem R_arg4 (m : (ℓ : Loc nD τ sig) → Buf (Elt F) ℓ) (d : Dev nD) :
    R m d main_arg4 = m ((d.tc : Thread nD τ).loc main_arg4) := by
  unfold R
  after_results_simp

end Cert.ReferenceIdeal.Ref

end
-- ==== Proof.KernelHost.lean ====
/-
  What the kernel's region finds: the three arrays the host operations before the region compute.

  Before the region the kernel's program flattens the sample indices, masks the weights and the weighted values by
  validity, and accumulates them into the volume by two scatters at ONE index column: a float scatter of the PAIR
  (masked weight, masked weighted value) as the two columns of one `[P, 2]` update into a zero `[2^24, 2]` array, whose two
  columns are then cut out and reshaped to the two `256³` caches, and an integer scatter of the validity bits into a zero
  vector, reshaped to the `256³` hit counts. This module reads those three arrays one level deep — each as its scatter of the
  index column and the update vectors, these still as the buffers the region finds (`V`) — and the two zero operands.
-/
import proofs.«155038_j82463372083721_2_alg».proof.Proof.Gen.KernelIdeal.Frame
import Idealize.ShloMosaic.Lib.StableHlo.Run

set_option Elab.async false

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- Reads the region-entry contents `V` at literal buffers: unfolds the fold over the host operations before the region. -/
macro "read_prefix" : tactic =>
  `(tactic| (dsimp only [V]
             simp only [hostOps0, hostOps0_1, hostOps0_2, hostOps0_3, hostOps0_4, hostOps0_5, hostOps0_6, List.flatten_cons,
               List.flatten_nil, List.append_nil, List.cons_append, List.nil_append]
             after_results_simp))

set_option maxRecDepth 65536 in
set_option maxHeartbeats 40000000 in
/-- The weights cache: column 0 of the stacked scatter, as a volume. -/
theorem wcache_eq (c : Dev nD) :
    V m c main_v64 = (shapeCast S256x256x256 (shapeCast S16777216 (extractStridedSlice S16777216x1 ![0, 0]
      (Host.scatterAdd scatter_S16777216x2_S16777216x1_S16777216x2_1_0_0_1 (V m c main_v54) (V m c main_v60)
        (concatenate S16777216x2 1 [⟨S16777216x1, broadcastInDim S16777216x1 ![0] bcast_S16777216_S16777216x1_0 (V m c main_v47)⟩,
          ⟨S16777216x1, broadcastInDim S16777216x1 ![0] bcast_S16777216_S16777216x1_0 (V m c main_v49)⟩]
          concatenates_S16777216x1_S16777216x1_S16777216x2_d1))
      slices_S16777216x2_S16777216x1_0_0) shapeCasts_S16777216x1_S16777216) shapeCasts_S16777216_S256x256x256
      : (⟨S256x256x256, .f32⟩ : BufTy).Contents (Elt F)) := by
  read_prefix
  rfl

set_option maxRecDepth 65536 in
set_option maxHeartbeats 40000000 in
/-- The weighted-values cache: column 1 of the same scatter, as a volume. -/
theorem vcache_eq (c : Dev nD) :
    V m c main_v67 = (shapeCast S256x256x256 (shapeCast S16777216 (extractStridedSlice S16777216x1 ![0, 1]
      (Host.scatterAdd scatter_S16777216x2_S16777216x1_S16777216x2_1_0_0_1 (V m c main_v54) (V m c main_v60)
        (concatenate S16777216x2 1 [⟨S16777216x1, broadcastInDim S16777216x1 ![0] bcast_S16777216_S16777216x1_0 (V m c main_v47)⟩,
          ⟨S16777216x1, broadcastInDim S16777216x1 ![0] bcast_S16777216_S16777216x1_0 (V m c main_v49)⟩]
          concatenates_S16777216x1_S16777216x1_S16777216x2_d1))
      slices_S16777216x2_S16777216x1_0_1) shapeCasts_S16777216x1_S16777216) shapeCasts_S16777216_S256x256x256
      : (⟨S256x256x256, .f32⟩ : BufTy).Contents (Elt F)) := by
  read_prefix
  rfl

set_option maxRecDepth 65536 in
set_option maxHeartbeats 40000000 in
/-- The hit counts: the validity bits accumulated at the index column, as a volume. -/
theorem count_eq (c : Dev nD) :
    V m c main_v76 = (shapeCast S256x256x256
      (Host.scatter scatter_S16777216_S16777216x1_S16777216_n_0_0_1 IntOp.addi (V m c main_v68) (V m c main_v74) (V m c main_v50))
      shapeCasts_S16777216_S256x256x256 : (⟨S256x256x256, .i32⟩ : BufTy).Contents (Elt F)) := by
  read_prefix
  rfl

set_option maxRecDepth 65536 in
set_option maxHeartbeats 40000000 in
/-- The float scatter starts from zeros. -/
theorem zeros2_eq (c : Dev nD) :
    V m c main_v54 = (broadcastInDim S16777216x2 ![] bcast_S_S16777216x2 (constant S_ .f32 0x00000000#32)
      : (⟨S16777216x2, .f32⟩ : BufTy).Contents (Elt F)) := by
  read_prefix

set_option maxRecDepth 65536 in
set_option maxHeartbeats 40000000 in
/-- The integer scatter starts from zeros. -/
theorem zerosI_eq (c : Dev nD) :
    V m c main_v68 = (broadcastInDim S16777216 ![] bcast_S_S16777216 (constantI S_ 32 0#32)
      : (⟨S16777216, .i32⟩ : BufTy).Contents (Elt F)) := by
  read_prefix

set_option maxRecDepth 65536 in
set_option maxHeartbeats 40000000 in
/-- The two scatters use one index column. -/
theorem index_col_eq (c : Dev nD) :
    V m c main_v74 = (V m c main_v60 : (⟨S16777216x1, .i32⟩ : BufTy).Contents (Elt F)) := by
  read_prefix

end Cert.KernelIdeal.Host

end
-- ==== Proof.RefRead.lean ====
/-
  The reference, read one level deep.

  The reference flattens the sample indices, masks the weights and the weighted values by validity, and accumulates them
  into the volume by THREE scatters at index columns computed alike: the masked weights, the masked weighted values and
  the validity bits, each a vector scattered into a zero vector and reshaped to a `256³` volume. Its two results combine
  those volumes with the two argument volumes voxel by voxel. This module states each of these buffers as its operation
  applied to the buffers it reads, those still as what the run leaves in them (`R`).
-/
import proofs.«155038_j82463372083721_2_alg».proof.Proof.RefRun

set_option Elab.async false

noncomputable section

namespace Cert.ReferenceIdeal.Ref

open Cert.ReferenceIdeal Cert.ReferenceIdeal.Gen Cert.ReferenceIdeal.ValueP Idealize.ShloMosaic Idealize.ShloMosaic.TcCoe Idealize.SL.Sem
open Idealize.ShloMosaic.StableHlo

variable {F : FTy → Type} [FloatOps F]
variable (m : (ℓ : Loc nD τ sig) → Buf (Elt F) ℓ)

/-- Reads `R` at literal buffers: unfolds the fold over the reference's operations. -/
macro "read_ref" : tactic => `(tactic| (unfold R; after_results_simp))

set_option maxRecDepth 65536 in
set_option maxHeartbeats 40000000 in
/-- The weights cache: the masked weights accumulated at the index column, as a volume. -/
theorem wcache_eq (d : Dev nD) :
    R m d main_v58 = (shapeCast S256x256x256
      (Host.scatterAdd scatter_S16777216_S16777216x1_S16777216_n_0_0_1 (R m d main_v50) (R m d main_v56) (R m d main_v47))
      shapeCasts_S16777216_S256x256x256 : (⟨S256x256x256, .f32⟩ : BufTy).Contents (Elt F)) := by
  read_ref
  rfl

set_option maxRecDepth 65536 in
set_option maxHeartbeats 40000000 in
/-- The weighted-values cache. -/
theorem vcache_eq (d : Dev nD) :
    R m d main_v66 = (shapeCast S256x256x256
      (Host.scatterAdd scatter_S16777216_S16777216x1_S16777216_n_0_0_1 (R m d main_v50) (R m d main_v64) (R m d main_v49))
      shapeCasts_S16777216_S256x256x256 : (⟨S256x256x256, .f32⟩ : BufTy).Contents (Elt F)) := by
  read_ref
  rfl

set_option maxRecDepth 65536 in
set_option maxHeartbeats 40000000 in
/-- The hit counts. -/
theorem count_eq (d : Dev nD) :
    R m d main_v76 = (shapeCast S256x256x256
      (Host.scatter scatter_S16777216_S16777216x1_S16777216_n_0_0_1 IntOp.addi (R m d main_v67) (R m d main_v74) (R m d main_v68))
      shapeCasts_S16777216_S256x256x256 : (⟨S256x256x256, .i32⟩ : BufTy).Contents (Elt F)) := by
  read_ref
  rfl

set_option maxRecDepth 65536 in
set_option maxHeartbeats 40000000 in
/-- The float scatters start from zeros. -/
theorem zeros_eq (d : Dev nD) :
    R m d main_v50 = (broadcastInDim S16777216 ![] bcast_S_S16777216 (constant S_ .f32 0x00000000#32)
      : (⟨S16777216, .f32⟩ : BufTy).Contents (Elt F)) := by
  read_ref

set_option maxRecDepth 65536 in
set_option maxHeartbeats 40000000 in
/-- The integer scatter starts from zeros. -/
theorem zerosI_eq (d : Dev nD) :
    R m d main_v67 = (broadcastInDim S16777216 ![] bcast_S_S16777216 (constantI S_ 32 0#32)
      : (⟨S16777216, .i32⟩ : BufTy).Contents (Elt F)) := by
  read_ref

set_option maxRecDepth 65536 in
set_option maxHeartbeats 40000000 in
/-- The three scatters use one index column: the second's is the first's, -/
theorem index_col2_eq (d : Dev nD) :
    R m d main_v64 = (R m d main_v56 : (⟨S16777216x1, .i32⟩ : BufTy).Contents (Elt F)) := by
  read_ref

set_option maxRecDepth 65536 in
set_option maxHeartbeats 40000000 in
/-- and so is the third's. -/
theorem index_col3_eq (d : Dev nD) :
    R m d main_v74 = (R m d main_v56 : (⟨S16777216x1, .i32⟩ : BufTy).Contents (Elt F)) := by
  read_ref

end Cert.ReferenceIdeal.Ref

end
-- ==== Proof.LibAfterAppend.lean ====
/-
  A straight line of host operations run in two stretches: the fold of the operations' results over a valuation
  (`StableHlo.after`) of a concatenation is the fold of the second stretch over the fold of the first. It lets a
  long line be read stretch by stretch, each against an arbitrary valuation.
-/
import Idealize.ShloMosaic.Lib.StableHlo.Run

namespace Idealize.ShloMosaic.StableHlo

variable {τ : Topo} {sig : RefSig} {Val : EltTy → Type}

/-- The results after `a ++ b` are the results after `b` of the results after `a`. -/
theorem after_append (a b : List (HloOp τ sig Val)) (V : Valuation τ sig Val) :
    after (a ++ b) V = after b (after a V) := by
  induction a generalizing V with
  | nil => rfl
  | cons op a ih => exact ih (op.result V)

end Idealize.ShloMosaic.StableHlo
-- ==== Proof.RefResults.lean ====
/-
  The reference's two results.

  Each is one selection, voxel by voxel, by "the voxel was hit": the new value selects between the weighted mean
  `(wv · vv + vcache) / (wv + wcache)` and the old value, the new weight between `wv + wcache` and the old weight. The two
  selections are the program's last two operations; they are read against whatever the first 113 operations leave, so that
  the transports an outlined function's operations carry (identities along the buffers' types) are stripped on variables.
-/
import proofs.«155038_j82463372083721_2_alg».proof.Proof.RefRun
import proofs.«155038_j82463372083721_2_alg».proof.Proof.LibAfterAppend

set_option Elab.async false

noncomputable section

namespace Cert.ReferenceIdeal.Ref

open Cert.ReferenceIdeal Cert.ReferenceIdeal.Gen Cert.ReferenceIdeal.ValueP Idealize.ShloMosaic Idealize.ShloMosaic.TcCoe Idealize.SL.Sem
open Idealize.ShloMosaic.StableHlo

variable {F : FTy → Type} [FloatOps F]
variable (m : (ℓ : Loc nD τ sig) → Buf (Elt F) ℓ)

/-- Reads `R` at literal buffers: unfolds the fold over the reference's operations. -/
macro "read_result" : tactic => `(tactic| (unfold R; after_results_simp))

set_option maxRecDepth 65536 in
set_option maxHeartbeats 40000000 in
/-- The program is its first 113 operations, then the two selections. -/
theorem ops_split : (ops (F := F)) = List.take 113 ops ++
    [TRef.ternary (TRef.of (T := ⟨S256x256x256, .i1⟩) main_v78) (TRef.of (T := ⟨S256x256x256, .f32⟩) main_v82) (TRef.of (T := ⟨S256x256x256, .f32⟩) main_arg3) (TRef.of (T := ⟨S256x256x256, .f32⟩) main_v83) select,
     TRef.ternary (TRef.of (T := ⟨S256x256x256, .i1⟩) main_v78) (TRef.of (T := ⟨S256x256x256, .f32⟩) main_v79) (TRef.of (T := ⟨S256x256x256, .f32⟩) main_arg4) (TRef.of (T := ⟨S256x256x256, .f32⟩) main_v84) select] := by
  rfl

set_option maxRecDepth 65536 in
set_option maxHeartbeats 40000000 in
/-- The new values are the selection, by the hit mask, between the quotient and the old values. -/
theorem values_sel (d : Dev nD) :
    R m d main_v83 = (select (R m d main_v78) (R m d main_v82) (R m d main_arg3) : (⟨S256x256x256, .f32⟩ : BufTy).Contents (Elt F)) := by
  unfold R
  rw [ops_split, after_append]
  generalize after (List.take 113 (ops (F := F))) (launchContents m d) = W
  after_results_simp
  rfl

set_option maxRecDepth 65536 in
set_option maxHeartbeats 40000000 in
/-- The new weights are the selection, by the hit mask, between the new denominator and the old weights. -/
theorem weights_sel (d : Dev nD) :
    R m d main_v84 = (select (R m d main_v78) (R m d main_v79) (R m d main_arg4) : (⟨S256x256x256, .f32⟩ : BufTy).Contents (Elt F)) := by
  unfold R
  rw [ops_split, after_append]
  generalize after (List.take 113 (ops (F := F))) (launchContents m d) = W
  after_results_simp
  rfl

set_option maxRecDepth 65536 in
set_option maxHeartbeats 40000000 in
/-- The hit mask: the hit count is positive. -/
theorem hit_eq (d : Dev nD) :
    R m d main_v78 = (cmpi .sgt (R m d main_v76) (broadcastInDim S256x256x256 ![] bcast_S_S256x256x256 (constantI S_ 32 0#32))
      : (⟨S256x256x256, .i1⟩ : BufTy).Contents (Elt F)) := by
  read_result

set_option maxRecDepth 65536 in
set_option maxHeartbeats 40000000 in
/-- The new denominator: old weight plus accumulated weight. -/
theorem denom_eq (d : Dev nD) :
    R m d main_v79 = (addf (R m d main_arg4) (R m d main_v58) : (⟨S256x256x256, .f32⟩ : BufTy).Contents (Elt F)) := by
  read_result

set_option maxRecDepth 65536 in
set_option maxHeartbeats 40000000 in
/-- The quotient: old weighted value plus accumulated weighted value, over the new denominator. -/
theorem quot_eq (d : Dev nD) :
    R m d main_v82 = (Host.divf (addf (mulf (R m d main_arg4) (R m d main_arg3)) (R m d main_v66)) (addf (R m d main_arg4) (R m d main_v58))
      : (⟨S256x256x256, .f32⟩ : BufTy).Contents (Elt F)) := by
  read_result

/-- The new values: where the voxel was hit, the weighted mean of old and accumulated; elsewhere the old value. -/
theorem values_eq (d : Dev nD) :
    R m d main_v83 = (select (cmpi .sgt (R m d main_v76) (broadcastInDim S256x256x256 ![] bcast_S_S256x256x256 (constantI S_ 32 0#32)))
        (Host.divf (addf (mulf (R m d main_arg4) (R m d main_arg3)) (R m d main_v66)) (addf (R m d main_arg4) (R m d main_v58)))
        (R m d main_arg3) : (⟨S256x256x256, .f32⟩ : BufTy).Contents (Elt F)) := by
  rw [values_sel m d, hit_eq m d, quot_eq m d]

/-- The new weights: where the voxel was hit, old plus accumulated; elsewhere the old weight. -/
theorem weights_eq (d : Dev nD) :
    R m d main_v84 = (select (cmpi .sgt (R m d main_v76) (broadcastInDim S256x256x256 ![] bcast_S_S256x256x256 (constantI S_ 32 0#32)))
        (addf (R m d main_arg4) (R m d main_v58)) (R m d main_arg4) : (⟨S256x256x256, .f32⟩ : BufTy).Contents (Elt F)) := by
  rw [weights_sel m d, hit_eq m d, denom_eq m d]

end Cert.ReferenceIdeal.Ref

end
-- ==== Proof.CrossChain.lean ====
/-
  The two programs' shared chain.

  Up to the scatters the kernel's program and the reference apply the same host operations to the same three argument
  arrays: the flat voxel index of each (sample, corner) pair — the three clipped coordinates combined as
  `65536 x + 256 y + z`, wrapped as jax wraps a negative index, as a column —, the validity bit of the pair, the weight and
  the weighted value masked by it. So when the argument arrays agree these buffers agree, operation for operation. The one
  spelling difference is the clip's upper bound: the kernel broadcasts the scalar `255`, the reference a three-vector of
  `255`s along the coordinate axis — the same constant array (`hi_eq`).
-/
import proofs.«155038_j82463372083721_2_alg».proof.Proof.Gen.KernelIdeal.Frame
import proofs.«155038_j82463372083721_2_alg».proof.Proof.RefRun

set_option Elab.async false

noncomputable section

namespace Cert.Cross

open Idealize.ShloMosaic Idealize.ShloMosaic.TcCoe Idealize.SL.Sem Idealize.ShloMosaic.StableHlo

variable {F : FTy → Type} [FloatOps F]
variable (m : (ℓ : Loc Cert.KernelIdeal.nD Cert.KernelIdeal.τ Cert.KernelIdeal.sig) → Buf (Elt F) ℓ)
variable (m' : (ℓ : Loc Cert.ReferenceIdeal.nD Cert.ReferenceIdeal.τ Cert.ReferenceIdeal.sig) → Buf (Elt F) ℓ)

/-- Reads both programs' buffers: the kernel's region-entry contents and the reference's final contents, each the fold of its
    host operations over its launch memory. -/
macro "read_both" : tactic =>
  `(tactic| (dsimp only [Cert.KernelIdeal.Gen.V]
             simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, List.flatten_cons, List.flatten_nil, List.append_nil, List.cons_append, List.nil_append]
             unfold Cert.ReferenceIdeal.Ref.R
             after_results_simp))

/-- The same in a hypothesis and the goal. -/
macro "read_both_at " h:ident : tactic =>
  `(tactic| (dsimp only [Cert.KernelIdeal.Gen.V] at $h:ident ⊢
             simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, List.flatten_cons, List.flatten_nil, List.append_nil, List.cons_append, List.nil_append] at $h:ident ⊢
             unfold Cert.ReferenceIdeal.Ref.R at $h:ident ⊢
             simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne'] at $h:ident ⊢))

set_option maxRecDepth 65536 in
set_option maxHeartbeats 40000000 in
/-- The clip's upper bound is the constant `255` in both programs. -/
theorem hi_eq (c : Dev 1) :
    (Cert.KernelIdeal.Gen.V m c Cert.KernelIdeal.main_call0_v4 : (⟨Cert.KernelIdeal.S16777216x3, .i32⟩ : BufTy).Contents (Elt F))
      = Cert.ReferenceIdeal.Ref.R m' c Cert.ReferenceIdeal.main_call0_v4 := by
  read_both
  rfl

set_option maxRecDepth 65536 in
set_option maxHeartbeats 40000000 in
/-- The masked weights agree. -/
theorem wm_eq (c : Dev 1) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.KernelIdeal.Gen.V m c Cert.KernelIdeal.main_v47 : (⟨Cert.KernelIdeal.S16777216, .f32⟩ : BufTy).Contents (Elt F))
      = Cert.ReferenceIdeal.Ref.R m' c Cert.ReferenceIdeal.main_v47 := by
  have e1 : launchContents m' c (Proc.tc.devRef Cert.ReferenceIdeal.main_arg1) = m (c, Proc.tc.devRef Cert.KernelIdeal.main_arg1) := h1
  have e2 : launchContents m' c (Proc.tc.devRef Cert.ReferenceIdeal.main_arg2) = m (c, Proc.tc.devRef Cert.KernelIdeal.main_arg2) := h2
  read_both
  rw [e1, e2]
  rfl

set_option maxRecDepth 65536 in
set_option maxHeartbeats 40000000 in
/-- The masked weighted values agree. -/
theorem um_eq (c : Dev 1) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.KernelIdeal.Gen.V m c Cert.KernelIdeal.main_v49 : (⟨Cert.KernelIdeal.S16777216, .f32⟩ : BufTy).Contents (Elt F))
      = Cert.ReferenceIdeal.Ref.R m' c Cert.ReferenceIdeal.main_v49 := by
  have e0 : launchContents m' c (Proc.tc.devRef Cert.ReferenceIdeal.main_arg0) = m (c, Proc.tc.devRef Cert.KernelIdeal.main_arg0) := h0
  have e1 : launchContents m' c (Proc.tc.devRef Cert.ReferenceIdeal.main_arg1) = m (c, Proc.tc.devRef Cert.KernelIdeal.main_arg1) := h1
  have e2 : launchContents m' c (Proc.tc.devRef Cert.ReferenceIdeal.main_arg2) = m (c, Proc.tc.devRef Cert.KernelIdeal.main_arg2) := h2
  read_both
  rw [e0, e1, e2]
  rfl

set_option maxRecDepth 65536 in
set_option maxHeartbeats 40000000 in
/-- The validity bits, as the integer updates of the hit-count scatter, agree. -/
theorem valid_eq (c : Dev 1) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.KernelIdeal.Gen.V m c Cert.KernelIdeal.main_v50 : (⟨Cert.KernelIdeal.S16777216, .i32⟩ : BufTy).Contents (Elt F))
      = Cert.ReferenceIdeal.Ref.R m' c Cert.ReferenceIdeal.main_v68 := by
  have e1 : launchContents m' c (Proc.tc.devRef Cert.ReferenceIdeal.main_arg1) = m (c, Proc.tc.devRef Cert.KernelIdeal.main_arg1) := h1
  read_both
  rw [e1]
  rfl

set_option maxRecDepth 65536 in
set_option maxHeartbeats 40000000 in
/-- The index columns agree. -/
theorem index_col_eq (c : Dev 1) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.KernelIdeal.Gen.V m c Cert.KernelIdeal.main_v60 : (⟨Cert.KernelIdeal.S16777216x1, .i32⟩ : BufTy).Contents (Elt F))
      = Cert.ReferenceIdeal.Ref.R m' c Cert.ReferenceIdeal.main_v56 := by
  have e1 : launchContents m' c (Proc.tc.devRef Cert.ReferenceIdeal.main_arg1) = m (c, Proc.tc.devRef Cert.KernelIdeal.main_arg1) := h1
  have hhi := hi_eq m m' c
  read_both_at hhi
  rw [e1, hhi]
  rfl

end Cert.Cross

end
-- ==== Proof.LibScatterCols.lean ====
/-
  The accumulating scatter of ROWS, column by column, on the extended reals.

  `x.at[idx].add(u)` for an operand `x : [N, C]`, one scatter index per update row read off an index column
  `idx : [E, 1]`, and updates `u : [E, C]` adds row `e` of `u` to row `idx[e]` of `x` (an index outside `[0, N)`
  drops its row). Entry `(p, q)` of the result is therefore `x[p, q]` plus the sum of `u[e, q]` over the rows `e`
  with `idx[e] = p` — which is entry `p` of the accumulating scatter, at the same index column, of COLUMN `q` of `u`
  into column `q` of `x` (`scatterAdd_col`). So two vectors scattered side by side as the two columns of one
  `[E, 2]` update, and the two columns of the result read back, are the two vectors scattered one at a time
  (`scatterAdd_stack2_col0`, `scatterAdd_stack2_col1`): the sums are the same sums, term for term, and no law of
  the extended reals beyond reindexing a finite sum is used.
-/
import Idealize.ShloMosaic.PureOps.Ideal
import Idealize.ShloMosaic.Lib.ValueIdx
import Idealize.ShloMosaic.Lib.Pipeline.Value

noncomputable section

open scoped BigOperators

namespace ScatterCols

open Idealize.ShloMosaic Idealize.ShloMosaic.ValueIdx

/-! ## The two scatters' dimension numbers -/

/-- `x.at[idx].add(u)` for a vector `x : [N]`, an index column `idx : [E, 1]` and updates `u : [E]`: the operand's
    one axis is the scattered one, an update has no window. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The same for rows: an operand `x : [N, C]` scattered on its first axis, an update's window its whole row. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat}

/-! ## Where an update lands -/

/-- Update `e` of the vector scatter starts at the signed reading of `idx[e, 0]`. -/
theorem vec_start (wf) (e : (⟨1, ![E]⟩ : Shape).Idx) (idx : IVec ⟨2, ![E, 1]⟩ w) :
    (vecDims N E wf).start e idx 0 = (idx (ix2 (e 0) (0 : Fin 1))).toInt := by
  unfold ScatterDims.start
  rw [dif_pos (show (0 : Fin 1) ∈ (vecDims N E wf).scatterDimsToOperandDims from List.mem_singleton.mpr rfl)]
  congr 2
  funext b
  refine Fin.ext ?_
  match b with
  | ⟨0, _⟩ => rfl
  | ⟨1, _⟩ => rfl

/-- It has no window coordinate: the operand's one axis is inserted. -/
theorem vec_window (wf) (e : (⟨1, ![E]⟩ : Shape).Idx) :
    (vecDims N E wf).window e 0 = 0 := by
  unfold ScatterDims.window
  rw [dif_neg]
  show (0 : Fin 1) ∉ (List.finRange 1).filter (· ∉ [(0 : Fin 1)])
  decide

/-- Update `e` lands on element `p` exactly when `idx[e, 0]`, read signed, is `p`. -/
theorem vec_resultIdx (wf) (e : (⟨1, ![E]⟩ : Shape).Idx) (idx : IVec ⟨2, ![E, 1]⟩ w) (p : (⟨1, ![N]⟩ : Shape).Idx) :
    (vecDims N E wf).resultIdx? e idx = some p ↔ (idx (ix2 (e 0) (0 : Fin 1))).toInt = ((p 0).val : Int) := by
  have hs := vec_start (N := N) wf e idx
  have hw := vec_window (N := N) wf e
  have hp0 : (p 0).val < N := (p 0).isLt
  unfold ScatterDims.resultIdx?
  split_ifs with h
  · rw [Option.some.injEq]
    constructor
    · rintro rfl
      have h0 := (h 0).1
      show _ = ((((vecDims N E wf).start e idx 0 + ((vecDims N E wf).window e 0 : Nat)).toNat : Nat) : Int)
      rw [hs, hw] at h0 ⊢
      omega
    · intro hp
      funext a
      obtain rfl : a = 0 := Subsingleton.elim _ _
      refine Fin.ext ?_
      show ((vecDims N E wf).start e idx 0 + ((vecDims N E wf).window e 0 : Nat)).toNat = (p 0).val
      rw [hs, hw, hp]; omega
  · constructor
    · intro hc; cases hc
    · intro hp
      exfalso; apply h
      intro a
      obtain rfl : a = 0 := Subsingleton.elim _ _
      rw [hs, hw, hp]
      show (0 : Int) ≤ ((p 0).val : Int) + ((0 : Nat) : Int) ∧ ((p 0).val : Int) + ((0 : Nat) : Int) < (N : Int)
      omega

/-- Update row `j 0` of the row scatter starts, on the scattered axis, at the signed reading of `idx[j 0, 0]`, -/
theorem row_start0 (wf) (j : (⟨2, ![E, C]⟩ : Shape).Idx) (idx : IVec ⟨2, ![E, 1]⟩ w) :
    (rowDims N E C wf).start j idx 0 = (idx (ix2 (j 0) (0 : Fin 1))).toInt := by
  unfold ScatterDims.start
  rw [dif_pos (show (0 : Fin 2) ∈ (rowDims N E C wf).scatterDimsToOperandDims from List.mem_singleton.mpr rfl)]
  congr 2
  funext b
  refine Fin.ext ?_
  match b with
  | ⟨0, _⟩ => rfl
  | ⟨1, _⟩ => rfl

/-- and at `0` on the column axis; -/
theorem row_start1 (wf) (j : (⟨2, ![E, C]⟩ : Shape).Idx) (idx : IVec ⟨2, ![E, 1]⟩ w) :
    (rowDims N E C wf).start j idx 1 = 0 := by
  unfold ScatterDims.start
  rw [dif_neg]
  show (1 : Fin 2) ∉ [(0 : Fin 2)]
  decide

/-- its window coordinate is `0` on the scattered axis -/
theorem row_window0 (wf) (j : (⟨2, ![E, C]⟩ : Shape).Idx) :
    (rowDims N E C wf).window j 0 = 0 := by
  unfold ScatterDims.window
  rw [dif_neg]
  show (0 : Fin 2) ∉ (List.finRange 2).filter (· ∉ [(0 : Fin 2)])
  decide

/-- and the update's own column on the column axis. -/
theorem row_window1 (wf) (j : (⟨2, ![E, C]⟩ : Shape).Idx) :
    (rowDims N E C wf).window j 1 = (j 1).val := by
  unfold ScatterDims.window
  have hm : (1 : Fin 2) ∈ (rowDims N E C wf).sKept := by
    show (1 : Fin 2) ∈ (List.finRange 2).filter (· ∉ [(0 : Fin 2)])
    decide
  rw [dif_pos hm]
  rfl

/-- Update element `(e, q')` lands on element `(p, q)` exactly when `idx[e, 0]`, read signed, is `p` and `q' = q`. -/
theorem row_resultIdx (wf) (j : (⟨2, ![E, C]⟩ : Shape).Idx) (idx : IVec ⟨2, ![E, 1]⟩ w) (i : (⟨2, ![N, C]⟩ : Shape).Idx) :
    (rowDims N E C wf).resultIdx? j idx = some i ↔
      (idx (ix2 (j 0) (0 : Fin 1))).toInt = ((i 0).val : Int) ∧ j 1 = i 1 := by
  have hs0 := row_start0 (N := N) wf j idx
  have hs1 := row_start1 (N := N) wf j idx
  have hw0 := row_window0 (N := N) wf j
  have hw1 := row_window1 (N := N) wf j
  have hi0 : (i 0).val < N := (i 0).isLt
  have hi1 : (i 1).val < C := (i 1).isLt
  have hj1 : (j 1).val < C := (j 1).isLt
  unfold ScatterDims.resultIdx?
  split_ifs with h
  · rw [Option.some.injEq]
    constructor
    · rintro rfl
      have h0 := (h 0).1
      refine ⟨?_, Fin.ext ?_⟩
      · show _ = ((((rowDims N E C wf).start j idx 0 + ((rowDims N E C wf).window j 0 : Nat)).toNat : Nat) : Int)
        rw [hs0, hw0] at h0 ⊢
        omega
      · show (j 1).val = ((rowDims N E C wf).start j idx 1 + ((rowDims N E C wf).window j 1 : Nat)).toNat
        rw [hs1, hw1]; omega
    · rintro ⟨hp, hq⟩
      funext a
      refine Fin.ext ?_
      match a with
      | ⟨0, _⟩ =>
        show ((rowDims N E C wf).start j idx 0 + ((rowDims N E C wf).window j 0 : Nat)).toNat = (i 0).val
        rw [hs0, hw0, hp]; omega
      | ⟨1, _⟩ =>
        show ((rowDims N E C wf).start j idx 1 + ((rowDims N E C wf).window j 1 : Nat)).toNat = (i 1).val
        rw [hs1, hw1, hq]; omega
  · constructor
    · intro hc; cases hc
    · rintro ⟨hp, hq⟩
      exfalso; apply h
      intro a
      match a with
      | ⟨0, _⟩ =>
        show (0 : Int) ≤ (rowDims N E C wf).start j idx 0 + ((rowDims N E C wf).window j 0 : Nat) ∧
          (rowDims N E C wf).start j idx 0 + ((rowDims N E C wf).window j 0 : Nat) < (N : Int)
        rw [hs0, hw0, hp]; omega
      | ⟨1, _⟩ =>
        show (0 : Int) ≤ (rowDims N E C wf).start j idx 1 + ((rowDims N E C wf).window j 1 : Nat) ∧
          (rowDims N E C wf).start j idx 1 + ((rowDims N E C wf).window j 1 : Nat) < (C : Int)
        rw [hs1, hw1]; omega

/-! ## A column of the scattered rows is the scattered column -/

/-- COLUMN `q` OF THE ROW SCATTER IS THE SCATTER OF COLUMN `q`: when column `q` of the operand is `x1` and column `q`
    of the updates is `u1`, entry `(p, q)` of the rows' accumulating scatter is entry `p` of the vectors'. Both are
    the operand's entry plus a sum of updates; the update elements `(e, q)` with `idx[e] = p` correspond one to one
    to the update rows `e` with `idx[e] = p`, and carry the same values. -/
theorem scatterAdd_col (wf2 wf1) (x2 : (⟨2, ![N, C]⟩ : Shape).Idx → EReal) (x1 : (⟨1, ![N]⟩ : Shape).Idx → EReal)
    (idx : IVec ⟨2, ![E, 1]⟩ w) (u2 : (⟨2, ![E, C]⟩ : Shape).Idx → EReal) (u1 : (⟨1, ![E]⟩ : Shape).Idx → EReal)
    (q : Fin C) (hx : ∀ p : Fin N, x2 (ix2 p q) = x1 (ix1 p)) (hu : ∀ e : Fin E, u2 (ix2 e q) = u1 (ix1 e)) (p : Fin N) :
    Ideal.hostScatterAdd (rowDims N E C wf2) x2 idx u2 (ix2 p q) = Ideal.hostScatterAdd (vecDims N E wf1) x1 idx u1 (ix1 p) := by
  unfold Ideal.hostScatterAdd
  rw [hx p]
  congr 1
  refine Finset.sum_nbij' (fun j => ix1 (j 0)) (fun e => ix2 (e 0) q) ?_ ?_ ?_ ?_ ?_
  · intro j hj
    rw [Finset.mem_filter] at hj ⊢
    refine ⟨Finset.mem_univ _, ?_⟩
    exact (vec_resultIdx wf1 _ idx _).mpr ((row_resultIdx wf2 j idx _).mp hj.2).1
  · intro e he
    rw [Finset.mem_filter] at he ⊢
    refine ⟨Finset.mem_univ _, ?_⟩
    exact (row_resultIdx wf2 _ idx _).mpr ⟨(vec_resultIdx wf1 e idx _).mp he.2, rfl⟩
  · intro j hj
    rw [Finset.mem_filter] at hj
    have hq : j 1 = q := ((row_resultIdx wf2 j idx _).mp hj.2).2
    rw [← hq]; exact (eq_ix2 j).symm
  · intro e he
    exact (eq_ix1 e).symm
  · intro j hj
    rw [Finset.mem_filter] at hj
    have hq : j 1 = q := ((row_resultIdx wf2 j idx _).mp hj.2).2
    rw [eq_ix2 j, hq]; exact hu (j 0)

/-! ## Two vectors side by side -/

section Stack
variable {α : Type}

/-- Two vectors `a b : [E]` as the two columns of an `[E, 2]` array: each made a column `[E, 1]`, the two
    concatenated along the column axis (what `jnp.stack([a, b], axis=-1)` lowers to). -/
abbrev stack2 (hbe : (⟨1, ![E]⟩ : Shape).BroadcastsInDim ⟨2, ![E, 1]⟩ (![0] : Fin 1 → Fin 2))
    (hcat : Shape.Concatenates [(⟨2, ![E, 1]⟩ : Shape), ⟨2, ![E, 1]⟩] ⟨2, ![E, 2]⟩ 1)
    (a b : (⟨1, ![E]⟩ : Shape).Idx → α) : (⟨2, ![E, 2]⟩ : Shape).Idx → α :=
  concatenate ⟨2, ![E, 2]⟩ 1 [⟨⟨2, ![E, 1]⟩, broadcastInDim ⟨2, ![E, 1]⟩ ![0] hbe a⟩,
    ⟨⟨2, ![E, 1]⟩, broadcastInDim ⟨2, ![E, 1]⟩ ![0] hbe b⟩] hcat

/-- A vector made a column, read at row `e`. -/
theorem column_apply (hbe : (⟨1, ![E]⟩ : Shape).BroadcastsInDim ⟨2, ![E, 1]⟩ (![0] : Fin 1 → Fin 2))
    (a : (⟨1, ![E]⟩ : Shape).Idx → α) (e : Fin E) :
    broadcastInDim ⟨2, ![E, 1]⟩ ![0] hbe a (ix2 e (0 : Fin 1)) = a (ix1 e) := by
  refine broadcastInDim_apply _ hbe a _ (ix1 e) (fun d => ?_)
  match d with
  | ⟨0, _⟩ =>
    show e.val = if E = 1 then 0 else e.val
    split_ifs with h
    · have := e.isLt; omega
    · rfl

/-- Column `0` of the pair is the first vector, -/
theorem stack2_apply0 (hbe) (hcat) (a b : (⟨1, ![E]⟩ : Shape).Idx → α) (e : Fin E) :
    stack2 hbe hcat a b (ix2 e (0 : Fin 2)) = a (ix1 e) := by
  refine (concatenate_pair_apply_left (t := ⟨2, ![E, 2]⟩) (s₁ := ⟨2, ![E, 1]⟩) (s₂ := ⟨2, ![E, 1]⟩) (1 : Fin 2) _ _ hcat
      (ix2 e (0 : Fin 2)) rfl (ix2 e (0 : Fin 1)) (fun d => ?_)).trans
    (column_apply hbe a e)
  match d with
  | ⟨0, _⟩ => rfl
  | ⟨1, _⟩ => rfl

/-- and column `1` the second. -/
theorem stack2_apply1 (hbe) (hcat) (a b : (⟨1, ![E]⟩ : Shape).Idx → α) (e : Fin E) :
    stack2 hbe hcat a b (ix2 e (1 : Fin 2)) = b (ix1 e) := by
  refine (concatenate_pair_apply_right (t := ⟨2, ![E, 2]⟩) (s₁ := ⟨2, ![E, 1]⟩) (s₂ := ⟨2, ![E, 1]⟩) (1 : Fin 2) _ _ hcat
      (ix2 e (1 : Fin 2)) rfl rfl (ix2 e (0 : Fin 1)) (fun d hd => ?_) rfl).trans
    (column_apply hbe b e)
  match d with
  | ⟨0, _⟩ => rfl
  | ⟨1, _⟩ => exact absurd rfl hd

/-- Column `q` of an `[N, C]` array cut out as `[N, 1]` and flattened to `[N]`, read at `p`. -/
theorem column_read (q : Fin C) (hs : (⟨2, ![N, C]⟩ : Shape).Slices ![0, q.val] ⟨2, ![N, 1]⟩)
    (hc : (⟨2, ![N, 1]⟩ : Shape).ShapeCasts ⟨1, ![N]⟩) (R : (⟨2, ![N, C]⟩ : Shape).Idx → α) (p : Fin N) :
    shapeCast ⟨1, ![N]⟩ (extractStridedSlice ⟨2, ![N, 1]⟩ ![0, q.val] R hs) hc (ix1 p) = R (ix2 p q) := by
  refine (shapeCast_apply _ hc (ix1 p) (ix2 p (0 : Fin 1)) ?_).trans
    (extractStridedSlice_apply _ R hs (ix2 p (0 : Fin 1)) (ix2 p q) (fun d => ?_))
  · rw [Shape.rowMajor_val_two, Shape.rowMajor_val_one]
    show p.val * 1 + 0 = p.val
    omega
  · match d with
    | ⟨0, _⟩ => show p.val = 0 + p.val; omega
    | ⟨1, _⟩ => show q.val = q.val + 0; omega

end Stack

/-! ## The stacked scatter, read back column by column -/

section Stacked
variable {φ : FTy}

/-- A scalar spread over a shape, at any index. -/
theorem splat_apply {t : Shape} (hb : (⟨0, ![]⟩ : Shape).BroadcastsInDim t (![] : Fin 0 → Fin t.rank))
    (z : (⟨0, ![]⟩ : Shape).Idx → EReal) (i : t.Idx) : broadcastInDim t ![] hb z i = z ix0 :=
  broadcastInDim_apply _ hb z i ix0 (fun d => d.elim0)

/-- COLUMN 0 OF THE STACKED SCATTER: the pair `(a, b)` scattered as the columns of one `[E, 2]` update into a
    constant `[N, 2]` array, and column `0` of the result cut out and flattened, is `a` scattered into the constant
    vector. -/
theorem scatterAdd_stack2_col0 (wf2 wf1)
    (hb2 : (⟨0, ![]⟩ : Shape).BroadcastsInDim ⟨2, ![N, 2]⟩ (![] : Fin 0 → Fin 2))
    (hb1 : (⟨0, ![]⟩ : Shape).BroadcastsInDim ⟨1, ![N]⟩ (![] : Fin 0 → Fin 1))
    (hbe : (⟨1, ![E]⟩ : Shape).BroadcastsInDim ⟨2, ![E, 1]⟩ (![0] : Fin 1 → Fin 2))
    (hcat : Shape.Concatenates [(⟨2, ![E, 1]⟩ : Shape), ⟨2, ![E, 1]⟩] ⟨2, ![E, 2]⟩ 1)
    (hs : (⟨2, ![N, 2]⟩ : Shape).Slices ![0, 0] ⟨2, ![N, 1]⟩) (hc : (⟨2, ![N, 1]⟩ : Shape).ShapeCasts ⟨1, ![N]⟩)
    (z : FVec Ideal ⟨0, ![]⟩ φ) (idx : IVec ⟨2, ![E, 1]⟩ w) (a b : FVec Ideal ⟨1, ![E]⟩ φ) :
    shapeCast ⟨1, ![N]⟩ (extractStridedSlice ⟨2, ![N, 1]⟩ ![0, 0]
        (Host.scatterAdd (F := Ideal) (rowDims N E 2 wf2) (broadcastInDim ⟨2, ![N, 2]⟩ ![] hb2 z) idx (stack2 hbe hcat a b)) hs) hc
      = Host.scatterAdd (F := Ideal) (vecDims N E wf1) (broadcastInDim ⟨1, ![N]⟩ ![] hb1 z) idx a := by
  funext j
  rw [eq_ix1 j]
  refine (column_read (0 : Fin 2) hs hc _ (j 0)).trans ?_
  exact scatterAdd_col wf2 wf1 _ _ idx _ _ (0 : Fin 2)
    (fun p => (splat_apply hb2 z _).trans (splat_apply hb1 z _).symm) (fun e => stack2_apply0 hbe hcat a b e) (j 0)

/-- COLUMN 1 OF THE STACKED SCATTER is `b` scattered into the constant vector. -/
theorem scatterAdd_stack2_col1 (wf2 wf1)
    (hb2 : (⟨0, ![]⟩ : Shape).BroadcastsInDim ⟨2, ![N, 2]⟩ (![] : Fin 0 → Fin 2))
    (hb1 : (⟨0, ![]⟩ : Shape).BroadcastsInDim ⟨1, ![N]⟩ (![] : Fin 0 → Fin 1))
    (hbe : (⟨1, ![E]⟩ : Shape).BroadcastsInDim ⟨2, ![E, 1]⟩ (![0] : Fin 1 → Fin 2))
    (hcat : Shape.Concatenates [(⟨2, ![E, 1]⟩ : Shape), ⟨2, ![E, 1]⟩] ⟨2, ![E, 2]⟩ 1)
    (hs : (⟨2, ![N, 2]⟩ : Shape).Slices ![0, 1] ⟨2, ![N, 1]⟩) (hc : (⟨2, ![N, 1]⟩ : Shape).ShapeCasts ⟨1, ![N]⟩)
    (z : FVec Ideal ⟨0, ![]⟩ φ) (idx : IVec ⟨2, ![E, 1]⟩ w) (a b : FVec Ideal ⟨1, ![E]⟩ φ) :
    shapeCast ⟨1, ![N]⟩ (extractStridedSlice ⟨2, ![N, 1]⟩ ![0, 1]
        (Host.scatterAdd (F := Ideal) (rowDims N E 2 wf2) (broadcastInDim ⟨2, ![N, 2]⟩ ![] hb2 z) idx (stack2 hbe hcat a b)) hs) hc
      = Host.scatterAdd (F := Ideal) (vecDims N E wf1) (broadcastInDim ⟨1, ![N]⟩ ![] hb1 z) idx b := by
  funext j
  rw [eq_ix1 j]
  refine (column_read (1 : Fin 2) hs hc _ (j 0)).trans ?_
  exact scatterAdd_col wf2 wf1 _ _ idx _ _ (1 : Fin 2)
    (fun p => (splat_apply hb2 z _).trans (splat_apply hb1 z _).symm) (fun e => stack2_apply1 hbe hcat a b e) (j 0)

end Stacked

end ScatterCols

end
-- ==== Proof.CombineLaw.lean ====
/-
  The one law the two programs' combine steps differ by.

  At a voxel the kernel divides by a GUARDED denominator — `wv + wc` where the voxel was hit, `1` where it was not —
  and then keeps the quotient only where the voxel was hit; the reference divides by `wv + wc` everywhere and keeps the
  quotient only where the voxel was hit. Under the guard the two denominators are the same number, and off it neither
  quotient is read: the two selections agree for every value of the guard and of the operands, on all of the extended
  reals (no finiteness is needed).
-/
import Idealize.ShloMosaic.PureOps.Ideal
import Idealize.ShloMosaic.Lib.ValueIdx

noncomputable section

namespace CombineLaw

open Idealize.ShloMosaic Idealize.ShloMosaic.ValueIdx

/-- A quotient kept only under the guard `t` may have its denominator guarded by `t` as well. -/
theorem select_div_guard {α : Type} (q : α → α → α) (t : BitVec 1) (n d g keep : α) :
    Scalar.select t (q n (Scalar.select t d g)) keep = Scalar.select t (q n d) keep := by
  by_cases h : t = 1#1
  · subst h; rw [select_one, select_one, select_one]
  · rw [eq_zero_of_ne_one h, select_zero, select_zero]

/-- On the extended reals the kernel's quotient and the host's are one operation. -/
theorem divf_eq_hostDivf (a b : EReal) :
    FloatOps.divf (F := Ideal) (φ := .f32) a b = FloatOps.hostDivf (F := Ideal) (φ := .f32) a b := rfl

end CombineLaw

end
-- ==== Proof.Bridge.lean ====
/-
  The two programs compute one function.

  With the argument arrays in agreement:
  · the kernel's weights cache — column 0 of ONE scatter of the pair (masked weight, masked weighted value) into a zero
    `[2^24, 2]` array — is the reference's, the masked weights scattered alone into a zero vector; and the weighted-values
    cache, column 1, is the masked weighted values scattered alone: a column of the scattered rows is the scattered column
    (the sums over the samples landing on a voxel are the same sums, term for term);
  · the hit counts are the same integer scatter of the same validity bits at the same index column;
  · at every voxel the kernel's guarded quotient is the reference's quotient wherever it is read (`CombineLaw`).
  So the reference's two results are the kernel's `newValues` and `newWeights` of the arrays the kernel's region finds.
-/
import proofs.«155038_j82463372083721_2_alg».proof.Proof.VolumeSpec
import proofs.«155038_j82463372083721_2_alg».proof.Proof.KernelHost
import proofs.«155038_j82463372083721_2_alg».proof.Proof.RefRead
import proofs.«155038_j82463372083721_2_alg».proof.Proof.RefResults
import proofs.«155038_j82463372083721_2_alg».proof.Proof.CrossChain
import proofs.«155038_j82463372083721_2_alg».proof.Proof.LibScatterCols
import proofs.«155038_j82463372083721_2_alg».proof.Proof.CombineLaw

set_option Elab.async false

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The weights caches agree: column 0 of the stacked scatter is the masked weights scattered alone. -/
theorem wcache_agree (c : Dev 1) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.KernelIdeal.Gen.V m c Cert.KernelIdeal.main_v64 : (⟨Cert.KernelIdeal.S256x256x256, .f32⟩ : BufTy).Contents (Elt Ideal)) = Cert.ReferenceIdeal.Ref.R m' c Cert.ReferenceIdeal.main_v58 := by
  rw [Cert.KernelIdeal.Host.wcache_eq m c, Cert.ReferenceIdeal.Ref.wcache_eq m' c, Cert.KernelIdeal.Host.zeros2_eq m c, Cert.ReferenceIdeal.Ref.zeros_eq m' c,
    Cert.Cross.index_col_eq m m' c h1, Cert.Cross.wm_eq m m' c h1 h2, Cert.Cross.um_eq m m' c h0 h1 h2]
  exact congrArg (fun X => shapeCast Cert.KernelIdeal.S256x256x256 X Cert.KernelIdeal.Gen.shapeCasts_S16777216_S256x256x256)
    (ScatterCols.scatterAdd_stack2_col0 (N := 16777216) (E := 16777216) (φ := .f32)
      Cert.KernelIdeal.Gen.scatter_S16777216x2_S16777216x1_S16777216x2_1_0_0_1_wf Cert.ReferenceIdeal.Gen.scatter_S16777216_S16777216x1_S16777216_n_0_0_1_wf
      Cert.KernelIdeal.Gen.bcast_S_S16777216x2 Cert.ReferenceIdeal.Gen.bcast_S_S16777216 Cert.KernelIdeal.Gen.bcast_S16777216_S16777216x1_0
      Cert.KernelIdeal.Gen.concatenates_S16777216x1_S16777216x1_S16777216x2_d1 Cert.KernelIdeal.Gen.slices_S16777216x2_S16777216x1_0_0
      Cert.KernelIdeal.Gen.shapeCasts_S16777216x1_S16777216 (constant (F := Ideal) Cert.KernelIdeal.S_ .f32 0x00000000#32)
      (Cert.ReferenceIdeal.Ref.R m' c Cert.ReferenceIdeal.main_v56) (Cert.ReferenceIdeal.Ref.R m' c Cert.ReferenceIdeal.main_v47) (Cert.ReferenceIdeal.Ref.R m' c Cert.ReferenceIdeal.main_v49))

/-- The weighted-values caches agree: column 1 of the stacked scatter is the masked weighted values scattered alone. -/
theorem vcache_agree (c : Dev 1) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.KernelIdeal.Gen.V m c Cert.KernelIdeal.main_v67 : (⟨Cert.KernelIdeal.S256x256x256, .f32⟩ : BufTy).Contents (Elt Ideal)) = Cert.ReferenceIdeal.Ref.R m' c Cert.ReferenceIdeal.main_v66 := by
  rw [Cert.KernelIdeal.Host.vcache_eq m c, Cert.ReferenceIdeal.Ref.vcache_eq m' c, Cert.KernelIdeal.Host.zeros2_eq m c, Cert.ReferenceIdeal.Ref.zeros_eq m' c,
    Cert.ReferenceIdeal.Ref.index_col2_eq m' c,
    Cert.Cross.index_col_eq m m' c h1, Cert.Cross.wm_eq m m' c h1 h2, Cert.Cross.um_eq m m' c h0 h1 h2]
  exact congrArg (fun X => shapeCast Cert.KernelIdeal.S256x256x256 X Cert.KernelIdeal.Gen.shapeCasts_S16777216_S256x256x256)
    (ScatterCols.scatterAdd_stack2_col1 (N := 16777216) (E := 16777216) (φ := .f32)
      Cert.KernelIdeal.Gen.scatter_S16777216x2_S16777216x1_S16777216x2_1_0_0_1_wf Cert.ReferenceIdeal.Gen.scatter_S16777216_S16777216x1_S16777216_n_0_0_1_wf
      Cert.KernelIdeal.Gen.bcast_S_S16777216x2 Cert.ReferenceIdeal.Gen.bcast_S_S16777216 Cert.KernelIdeal.Gen.bcast_S16777216_S16777216x1_0
      Cert.KernelIdeal.Gen.concatenates_S16777216x1_S16777216x1_S16777216x2_d1 Cert.KernelIdeal.Gen.slices_S16777216x2_S16777216x1_0_1
      Cert.KernelIdeal.Gen.shapeCasts_S16777216x1_S16777216 (constant (F := Ideal) Cert.KernelIdeal.S_ .f32 0x00000000#32)
      (Cert.ReferenceIdeal.Ref.R m' c Cert.ReferenceIdeal.main_v56) (Cert.ReferenceIdeal.Ref.R m' c Cert.ReferenceIdeal.main_v47) (Cert.ReferenceIdeal.Ref.R m' c Cert.ReferenceIdeal.main_v49))

/-- The two programs' integer scatters have the same dimension numbers. -/
theorem dims_eq : Cert.KernelIdeal.scatter_S16777216_S16777216x1_S16777216_n_0_0_1 = Cert.ReferenceIdeal.scatter_S16777216_S16777216x1_S16777216_n_0_0_1 := rfl

/-- The hit counts agree: the same integer scatter of the same bits at the same index column. -/
theorem count_agree (c : Dev 1) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.KernelIdeal.Gen.V m c Cert.KernelIdeal.main_v76 : (⟨Cert.KernelIdeal.S256x256x256, .i32⟩ : BufTy).Contents (Elt Ideal)) = Cert.ReferenceIdeal.Ref.R m' c Cert.ReferenceIdeal.main_v76 := by
  rw [Cert.KernelIdeal.Host.count_eq m c, Cert.ReferenceIdeal.Ref.count_eq m' c, Cert.KernelIdeal.Host.zerosI_eq m c, Cert.ReferenceIdeal.Ref.zerosI_eq m' c,
    Cert.KernelIdeal.Host.index_col_eq m c, Cert.ReferenceIdeal.Ref.index_col3_eq m' c,
    Cert.Cross.index_col_eq m m' c h1, Cert.Cross.valid_eq m m' c h1, dims_eq]

/-- The combine, voxel by voxel: the reference's selection of its quotient is the kernel's selection of its guarded quotient. -/
theorem combine_values (cnt : Cert.KernelIdeal.S256x256x256.Idx → BitVec 32) (wv vv vc wc : Cert.KernelIdeal.S256x256x256.Idx → EReal) :
    (select (cmpi .sgt cnt (broadcastInDim Cert.ReferenceIdeal.S256x256x256 ![] Cert.ReferenceIdeal.Gen.bcast_S_S256x256x256 (constantI Cert.ReferenceIdeal.S_ 32 0#32)))
        (Host.divf (F := Ideal) (φ := .f32) (addf (F := Ideal) (mulf (F := Ideal) wv vv) vc) (addf (F := Ideal) wv wc)) vv
      : Cert.KernelIdeal.S256x256x256.Idx → EReal)
      = Cert.KernelIdeal.Volume.newValues (F := Ideal) cnt wv vv vc wc := by
  funext i
  show Scalar.select (IntOp.cmpi .sgt (cnt i) 0#32)
      (FloatOps.hostDivf (F := Ideal) (φ := .f32) (FloatOps.addf (F := Ideal) (φ := .f32) (FloatOps.mulf (F := Ideal) (φ := .f32) (wv i) (vv i)) (vc i))
        (FloatOps.addf (F := Ideal) (φ := .f32) (wv i) (wc i))) (vv i)
    = Scalar.select (IntOp.cmpi .sgt (cnt i) 0#32)
      (FloatOps.divf (F := Ideal) (φ := .f32) (FloatOps.addf (F := Ideal) (φ := .f32) (FloatOps.mulf (F := Ideal) (φ := .f32) (wv i) (vv i)) (vc i))
        (Scalar.select (IntOp.cmpi .sgt (cnt i) 0#32) (FloatOps.addf (F := Ideal) (φ := .f32) (wv i) (wc i)) (Scalar.ofBits (F := Ideal) .f32 0x3F800000#32)))
      (vv i)
  exact (CombineLaw.select_div_guard (FloatOps.divf (F := Ideal) (φ := .f32)) _ _ _ _ _).symm

/-- The new weights are the same selection in both programs. -/
theorem combine_weights (cnt : Cert.KernelIdeal.S256x256x256.Idx → BitVec 32) (wv wc : Cert.KernelIdeal.S256x256x256.Idx → EReal) :
    (select (cmpi .sgt cnt (broadcastInDim Cert.ReferenceIdeal.S256x256x256 ![] Cert.ReferenceIdeal.Gen.bcast_S_S256x256x256 (constantI Cert.ReferenceIdeal.S_ 32 0#32)))
        (addf (F := Ideal) (φ := .f32) wv wc) wv : Cert.KernelIdeal.S256x256x256.Idx → EReal)
      = Cert.KernelIdeal.Volume.newWeights (F := Ideal) cnt wv wc := by
  funext i
  rfl

/-- THE NEW VALUES: what the reference ends with is the kernel's `newValues` of the arrays its region finds. -/
theorem values_agree (c : Dev 1) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Ref.R m' c Cert.ReferenceIdeal.main_v83 = Cert.KernelIdeal.Volume.newValues (F := Ideal) (Cert.KernelIdeal.Gen.V m c Cert.KernelIdeal.main_v76) (Cert.KernelIdeal.Gen.V m c Cert.KernelIdeal.main_arg4) (Cert.KernelIdeal.Gen.V m c Cert.KernelIdeal.main_arg3)
      (Cert.KernelIdeal.Gen.V m c Cert.KernelIdeal.main_v67) (Cert.KernelIdeal.Gen.V m c Cert.KernelIdeal.main_v64) := by
  rw [Cert.ReferenceIdeal.Ref.values_eq m' c, Cert.ReferenceIdeal.Ref.R_arg3 m' c, Cert.ReferenceIdeal.Ref.R_arg4 m' c, h3, h4,
    ← wcache_agree m m' c h0 h1 h2, ← vcache_agree m m' c h0 h1 h2, ← count_agree m m' c h1,
    Cert.KernelIdeal.Gen.V_main_arg3 m c, Cert.KernelIdeal.Gen.V_main_arg4 m c]
  exact combine_values _ _ _ _ _

/-- THE NEW WEIGHTS: likewise. -/
theorem weights_agree (c : Dev 1) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Ref.R m' c Cert.ReferenceIdeal.main_v84 = Cert.KernelIdeal.Volume.newWeights (F := Ideal) (Cert.KernelIdeal.Gen.V m c Cert.KernelIdeal.main_v76) (Cert.KernelIdeal.Gen.V m c Cert.KernelIdeal.main_arg4) (Cert.KernelIdeal.Gen.V m c Cert.KernelIdeal.main_v64) := by
  rw [Cert.ReferenceIdeal.Ref.weights_eq m' c, Cert.ReferenceIdeal.Ref.R_arg4 m' c, h4,
    ← wcache_agree m m' c h0 h1 h2, ← count_agree m m' c h1, Cert.KernelIdeal.Gen.V_main_arg4 m c]
  exact combine_weights _ _ _

end Cert.Bridge

end
-- ==== Proof.lean ====
/-
  A voxel volume updated by weighted samples: the kernel against its reference, on the extended reals.

  Both programs take 2^21 sample values, each with eight corner indices into a 256³ volume and eight corner weights, and the
  volume's old values `vv` and weights `wv`. Each (sample, corner) pair whose three indices lie in `[0, 256)` contributes
  its weight `w` and its weighted value `w · v` to the voxel it names; with `wc`, `vc` the sums of these contributions at a
  voxel and `cnt` the number of contributing pairs, the results are, voxel by voxel,
      new value  = if cnt > 0 then (wv · vv + vc) / (wv + wc) else vv,      new weight = if cnt > 0 then wv + wc else wv.
  The two programs differ in three arrangements, none of which changes a value on the extended reals:
  · the reference accumulates `w` and `w · v` by two scatters, the kernel by ONE scatter of the pair as the two columns of an
    `[·, 2]` array, reading the columns back — a column of the scattered rows is the scattered column (LibScatterCols);
  · the clip of the indices takes its upper bound `255` from a scalar in one program and from a three-vector in the other
    (CrossChain);
  · the kernel's combine, a Pallas kernel walking the volume in sixteen slabs (VolumeSpec … VolumeFinal), guards the
    denominator by `cnt > 0` before dividing, which the selection by `cnt > 0` makes invisible (CombineLaw).
  The kernel's run is the generated frame run with the two output volumes read as whole arrays (VolumeFinal.run); the
  reference's is the fold of its 115 host operations (RefRun.run), read buffer by buffer (RefRead, RefResults); Bridge sets
  the two side by side. No law used needs finiteness, so the precondition is never opened; the ideal pass rewrote nothing, so
  `preserves` is `True`.
-/
import proofs.«155038_j82463372083721_2_alg».proof.Defs
import proofs.«155038_j82463372083721_2_alg».proof.Proof.Gen.Kernel
import proofs.«155038_j82463372083721_2_alg».proof.Proof.Gen.Kernel.Frame
import proofs.«155038_j82463372083721_2_alg».proof.Proof.Gen.KernelIdeal
import proofs.«155038_j82463372083721_2_alg».proof.Proof.Gen.KernelIdeal.Frame
import proofs.«155038_j82463372083721_2_alg».proof.Proof.Gen.ReferenceIdeal
import proofs.«155038_j82463372083721_2_alg».proof.Proof.Gen.Pre_finite_inputs
import proofs.«155038_j82463372083721_2_alg».proof.Proof.VolumeFinal
import proofs.«155038_j82463372083721_2_alg».proof.Proof.RefRun
import proofs.«155038_j82463372083721_2_alg».proof.Proof.Bridge
import Idealize.ShloMosaic.Adequacy
import Idealize.ShloMosaic.Init

noncomputable section

namespace Cert.Proof

open Idealize.ShloMosaic Idealize.SL.Sem

/-- The kernel as printed runs, its arguments unchanged: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs, its arguments unchanged: no operation of its straight line writes one. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.Ref.R_arg0 m c),
      (h c Cert.ReferenceIdeal.main_arg1).trans (Cert.ReferenceIdeal.Ref.R_arg1 m c),
      (h c Cert.ReferenceIdeal.main_arg2).trans (Cert.ReferenceIdeal.Ref.R_arg2 m c),
      (h c Cert.ReferenceIdeal.main_arg3).trans (Cert.ReferenceIdeal.Ref.R_arg3 m c),
      (h c Cert.ReferenceIdeal.main_arg4).trans (Cert.ReferenceIdeal.Ref.R_arg4 m c)⟩)
    (Cert.ReferenceIdeal.Ref.run (F := Ideal) m ρ)

/-- From memories agreeing on the five arguments both idealized programs run to the same two volumes: the kernel's
    `newValues` and `newWeights` of the arrays its region finds, which the reference's two results equal. -/
theorem algebraic : Cert.algebraic_KernelIdeal_ReferenceIdeal := by
  intro m ρ m' ρ' _ hagree
  refine ⟨fun c => Cert.KernelIdeal.Volume.newValues (F := Ideal) (Cert.KernelIdeal.Gen.V m c Cert.KernelIdeal.main_v76) (Cert.KernelIdeal.Gen.V m c Cert.KernelIdeal.main_arg4)
      (Cert.KernelIdeal.Gen.V m c Cert.KernelIdeal.main_arg3) (Cert.KernelIdeal.Gen.V m c Cert.KernelIdeal.main_v67) (Cert.KernelIdeal.Gen.V m c Cert.KernelIdeal.main_v64),
    fun c => Cert.KernelIdeal.Volume.newWeights (F := Ideal) (Cert.KernelIdeal.Gen.V m c Cert.KernelIdeal.main_v76) (Cert.KernelIdeal.Gen.V m c Cert.KernelIdeal.main_arg4)
      (Cert.KernelIdeal.Gen.V m c Cert.KernelIdeal.main_v64),
    Cert.KernelIdeal.Volume.run (F := Ideal) m ρ, ?_⟩
  refine (θ_run Cert.ReferenceIdeal.defs _ _).mono (fun r h c => ?_) (Cert.ReferenceIdeal.Ref.run (F := Ideal) m' ρ')
  obtain ⟨h0, h1, h2, h3, h4⟩ := hagree c
  exact ⟨(h c Cert.ReferenceIdeal.main_v83).trans (Cert.Bridge.values_agree m m' c h0 h1 h2 h3 h4),
      (h c Cert.ReferenceIdeal.main_v84).trans (Cert.Bridge.weights_agree m m' c h0 h1 h2 h3 h4),
      (h c Cert.ReferenceIdeal.main_arg0).trans (Cert.ReferenceIdeal.Ref.R_arg0 m' c),
      (h c Cert.ReferenceIdeal.main_arg1).trans (Cert.ReferenceIdeal.Ref.R_arg1 m' c),
      (h c Cert.ReferenceIdeal.main_arg2).trans (Cert.ReferenceIdeal.Ref.R_arg2 m' c),
      (h c Cert.ReferenceIdeal.main_arg3).trans (Cert.ReferenceIdeal.Ref.R_arg3 m' c),
      (h c Cert.ReferenceIdeal.main_arg4).trans (Cert.ReferenceIdeal.Ref.R_arg4 m' c)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
